-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x33x64x64 : Shape := ⟨4, ![256, 33, 64, 64]⟩
abbrev S_ : Shape := ⟨0, ![]⟩

class Facts : Prop where
  bcast_S_S256x33x64x64 : S_.BroadcastsInDim S256x33x64x64 (![] : Fin 0 → Fin S256x33x64x64.rank)
  reducesTo_S256x33x64x64_S_d0_1_2_3 : S256x33x64x64.ReducesTo [0, 1, 2, 3] S_
  h_S_ : 0 < S_.numel

variable [Facts]

def fn {F : FTy → Type} [FloatOps F] (main_arg0 : FVec F S256x33x64x64 .f32) (main_arg1 : FVec F S256x33x64x64 .f32) : IVec S_ 1 :=
  let main_v0 : FVec F S256x33x64x64 .f32 := Host.absf main_arg0
  let main_cst : FVec F S_ .f32 := constant S_ .f32 0x7F800000#32
  let main_v1 : FVec F S256x33x64x64 .f32 := broadcastInDim S256x33x64x64 ![] bcast_S_S256x33x64x64 main_cst
  let main_v2 : IVec S256x33x64x64 1 := cmpf .olt main_v0 main_v1
  let main_c : IVec S_ 1 := constantI S_ 1 1#1
  let main_v3 : IVec S_ 1 := (fun x v => Host.reduce IntOp.andi x v reducesTo_S256x33x64x64_S_d0_1_2_3 h_S_) main_v2 main_c
  let main_v4 : FVec F S256x33x64x64 .f32 := Host.absf main_arg1
  let main_cst_0 : FVec F S_ .f32 := constant S_ .f32 0x7F800000#32
  let main_v5 : FVec F S256x33x64x64 .f32 := broadcastInDim S256x33x64x64 ![] bcast_S_S256x33x64x64 main_cst_0
  let main_v6 : IVec S256x33x64x64 1 := cmpf .olt main_v4 main_v5
  let main_c_1 : IVec S_ 1 := constantI S_ 1 1#1
  let main_v7 : IVec S_ 1 := (fun x v => Host.reduce IntOp.andi x v reducesTo_S256x33x64x64_S_d0_1_2_3 h_S_) main_v6 main_c_1
  let main_v8 : IVec S_ 1 := andi main_v3 main_v7
  main_v8
-- ==== Kernel.lean ====
abbrev S256x33x64x64 : Shape := ⟨4, ![256, 33, 64, 64]⟩
abbrev S1x1 : Shape := ⟨2, ![1, 1]⟩
abbrev S8x33x64x64 : Shape := ⟨4, ![8, 33, 64, 64]⟩
abbrev S8x32x64x64 : Shape := ⟨4, ![8, 32, 64, 64]⟩
abbrev S8x1x64x64 : Shape := ⟨4, ![8, 1, 64, 64]⟩
abbrev S8x64x64 : Shape := ⟨3, ![8, 64, 64]⟩
abbrev S8x64 : Shape := ⟨2, ![8, 64]⟩
abbrev S8 : Shape := ⟨1, ![8]⟩
abbrev S8x1 : Shape := ⟨2, ![8, 1]⟩
abbrev S8x32x64 : Shape := ⟨3, ![8, 32, 64]⟩
abbrev S8x32 : Shape := ⟨2, ![8, 32]⟩
abbrev S8x1x1x1 : Shape := ⟨4, ![8, 1, 1, 1]⟩
abbrev S1 : Shape := ⟨1, ![1]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S256x33x64x64, .f32⟩
  | .hbm, ⟨1, _⟩ => ⟨S256x33x64x64, .f32⟩
  | .hbm, ⟨2, _⟩ => ⟨S1x1, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S8x33x64x64, .f32⟩
  | .local _ .vmem, ⟨1, _⟩ => ⟨S8x33x64x64, .f32⟩
  | .local _ .vmem, ⟨2, _⟩ => ⟨S8x33x64x64, .f32⟩
  | .local _ .vmem, ⟨3, _⟩ => ⟨S8x33x64x64, .f32⟩
  | .local _ .vmem, ⟨4, _⟩ => ⟨S1x1, .f32⟩
  | .local _ .vmem, ⟨5, _⟩ => ⟨S1x1, .f32⟩
  | _, _ => ⟨S256x33x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x33x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x33x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S8x33x64x64_S8x33x64x64_0_0_0_0 : ∀ a, (![0, 0, 0, 0] : Fin 4 → Nat) a + S8x33x64x64.size a ≤ S8x33x64x64.size a
  h_S8x33x64x64 : 0 < S8x33x64x64.numel
  slices_S8x33x64x64_o0_0_0_0_S8x32x64x64 : S8x33x64x64.Slices ![0, 0, 0, 0] S8x32x64x64
  slices_S8x33x64x64_o0_32_0_0_S8x1x64x64 : S8x33x64x64.Slices ![0, 32, 0, 0] S8x1x64x64
  shapeCasts_S8x1x64x64_S8x64x64 : S8x1x64x64.ShapeCasts S8x64x64
  natLt_1_32 : 1 < 32
  reduces_S8x64x64_S8x64 : S8x64x64.Reduces [2] S8x64
  reduces_S8x64_S8 : S8x64.Reduces [1] S8
  shapeCasts_S8_S8x1 : S8.ShapeCasts S8x1
  reduces_S8x32x64x64_S8x32x64 : S8x32x64x64.Reduces [3] S8x32x64
  reduces_S8x32x64_S8x32 : S8x32x64.Reduces [2] S8x32
  reduces_S8x32_S8 : S8x32.Reduces [1] S8
  shapeCasts_S8x1_S8x1x1x1 : S8x1.ShapeCasts S8x1x1x1
  broadcasts_S8x1x1x1_S8x32x64x64 : S8x1x1x1.Broadcasts S8x32x64x64
  reduces_S8x1_S1 : S8x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x33x64x64.size a ≤ S256x33x64x64.size a
  hwx0_0 : ∀ i : grid0.Coords, EltTy.bits .f32 = 32 ∨ (Rect.block (s := S256x33x64x64) S8x33x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x33x64x64.size a ≤ S256x33x64x64.size a
  hwx0_1 : ∀ i : grid0.Coords, EltTy.bits .f32 = 32 ∨ (Rect.block (s := S256x33x64x64) S8x33x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S8x33x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x33x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x33x64x64 : Shape := ⟨4, ![256, 33, 64, 64]⟩
abbrev S256x32x64x64 : Shape := ⟨4, ![256, 32, 64, 64]⟩
abbrev S256x1x64x64 : Shape := ⟨4, ![256, 1, 64, 64]⟩
abbrev S256x64x64 : Shape := ⟨3, ![256, 64, 64]⟩
abbrev S_ : Shape := ⟨0, ![]⟩
abbrev S256 : Shape := ⟨1, ![256]⟩
abbrev S256x131072 : Shape := ⟨2, ![256, 131072]⟩
abbrev S256x1 : Shape := ⟨2, ![256, 1]⟩
abbrev S256x131073 : Shape := ⟨2, ![256, 131073]⟩

abbrev nBuf : Space → Nat
  | .hbm => 105
  | .vmem => 0
  | .smem => 0
  | _ => 0

abbrev bufTy : (tb : Table) → Fin (tcTables nBuf tb) → BufTy
  | .hbm, ⟨0, _⟩ => ⟨S256x33x64x64, .f32⟩
  | .hbm, ⟨1, _⟩ => ⟨S256x33x64x64, .f32⟩
  | .hbm, ⟨2, _⟩ => ⟨S256x32x64x64, .f32⟩
  | .hbm, ⟨3, _⟩ => ⟨S256x1x64x64, .f32⟩
  | .hbm, ⟨4, _⟩ => ⟨S256x64x64, .f32⟩
  | .hbm, ⟨5, _⟩ => ⟨S256x32x64x64, .f32⟩
  | .hbm, ⟨6, _⟩ => ⟨S256x1x64x64, .f32⟩
  | .hbm, ⟨7, _⟩ => ⟨S256x64x64, .f32⟩
  | .hbm, ⟨8, _⟩ => ⟨S_, .f32⟩
  | .hbm, ⟨9, _⟩ => ⟨S256x64x64, .f32⟩
  | .hbm, ⟨10, _⟩ => ⟨S256x64x64, .i1⟩
  | .hbm, ⟨11, _⟩ => ⟨S256x64x64, .f32⟩
  | .hbm, ⟨12, _⟩ => ⟨S256x64x64, .f32⟩
  | .hbm, ⟨13, _⟩ => ⟨S256x64x64, .f32⟩
  | .hbm, ⟨14, _⟩ => ⟨S256x64x64, .f32⟩
  | .hbm, ⟨15, _⟩ => ⟨S_, .f32⟩
  | .hbm, ⟨16, _⟩ => ⟨S256x64x64, .f32⟩
  | .hbm, ⟨17, _⟩ => ⟨S256x64x64, .i1⟩
  | .hbm, ⟨18, _⟩ => ⟨S256x64x64, .i32⟩
  | .hbm, ⟨19, _⟩ => ⟨S_, .i32⟩
  | .hbm, ⟨20, _⟩ => ⟨S256, .i32⟩
  | .hbm, ⟨21, _⟩ => ⟨S_, .f32⟩
  | .hbm, ⟨22, _⟩ => ⟨S256, .f32⟩
  | .hbm, ⟨23, _⟩ => ⟨S_, .f32⟩
  | .hbm, ⟨24, _⟩ => ⟨S256x64x64, .f32⟩
  | .hbm, ⟨25, _⟩ => ⟨S256x64x64, .i1⟩
  | .hbm, ⟨26, _⟩ => ⟨S256x64x64, .i32⟩
  | .hbm, ⟨27, _⟩ => ⟨S_, .i32⟩
  | .hbm, ⟨28, _⟩ => ⟨S256, .i32⟩
  | .hbm, ⟨29, _⟩ => ⟨S_, .f32⟩
  | .hbm, ⟨30, _⟩ => ⟨S256, .f32⟩
  | .hbm, ⟨31, _⟩ => ⟨S_, .i32⟩
  | .hbm, ⟨32, _⟩ => ⟨S256, .i32⟩
  | .hbm, ⟨33, _⟩ => ⟨S256, .i1⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .f32⟩
  | .hbm, ⟨38, _⟩ => ⟨S256, .f32⟩
  | .hbm, ⟨39, _⟩ => ⟨S_, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S_, .i32⟩
  | .hbm, ⟨44, _⟩ => ⟨S256, .i32⟩
  | .hbm, ⟨45, _⟩ => ⟨S256, .i1⟩
  | .hbm, ⟨46, _⟩ => ⟨S_, .i32⟩
  | .hbm, ⟨47, _⟩ => ⟨S256, .i32⟩
  | .hbm, ⟨48, _⟩ => ⟨S256, .i32⟩
  | .hbm, ⟨49, _⟩ => ⟨S256, .f32⟩
  | .hbm, ⟨50, _⟩ => ⟨S256, .f32⟩
  | .hbm, ⟨51, _⟩ => ⟨S_, .f32⟩
  | .hbm, ⟨52, _⟩ => ⟨S_, .f32⟩
  | .hbm, ⟨53, _⟩ => ⟨S256, .f32⟩
  | .hbm, ⟨54, _⟩ => ⟨S256, .f32⟩
  | .hbm, ⟨55, _⟩ => ⟨S_, .f32⟩
  | .hbm, ⟨56, _⟩ => ⟨S256x32x64x64, .f32⟩
  | .hbm, ⟨57, _⟩ => ⟨S256x32x64x64, .i1⟩
  | .hbm, ⟨58, _⟩ => ⟨S256x32x64x64, .f32⟩
  | .hbm, ⟨59, _⟩ => ⟨S256x32x64x64, .f32⟩
  | .hbm, ⟨60, _⟩ => ⟨S256x32x64x64, .f32⟩
  | .hbm, ⟨61, _⟩ => ⟨S256x32x64x64, .f32⟩
  | .hbm, ⟨62, _⟩ => ⟨S256x131072, .i1⟩
  | .hbm, ⟨63, _⟩ => ⟨S_, .i1⟩
  | .hbm, ⟨64, _⟩ => ⟨S256x1, .i1⟩
  | .hbm, ⟨65, _⟩ => ⟨S256x131073, .i1⟩
  | .hbm, ⟨66, _⟩ => ⟨S256x131072, .f32⟩
  | .hbm, ⟨67, _⟩ => ⟨S256x1, .f32⟩
  | .hbm, ⟨68, _⟩ => ⟨S256x131073, .f32⟩
  | .hbm, ⟨69, _⟩ => ⟨S256x131072, .f32⟩
  | .hbm, ⟨70, _⟩ => ⟨S256x1, .f32⟩
  | .hbm, ⟨71, _⟩ => ⟨S256x131073, .f32⟩
  | .hbm, ⟨72, _⟩ => ⟨S_, .f32⟩
  | .hbm, ⟨73, _⟩ => ⟨S256x131073, .f32⟩
  | .hbm, ⟨74, _⟩ => ⟨S256x131073, .f32⟩
  | .hbm, ⟨75, _⟩ => ⟨S_, .f32⟩
  | .hbm, ⟨76, _⟩ => ⟨S256, .f32⟩
  | .hbm, ⟨77, _⟩ => ⟨S256x1, .f32⟩
  | .hbm, ⟨78, _⟩ => ⟨S256x131073, .f32⟩
  | .hbm, ⟨79, _⟩ => ⟨S256x131073, .f32⟩
  | .hbm, ⟨80, _⟩ => ⟨S256x131073, .f32⟩
  | .hbm, ⟨81, _⟩ => ⟨S_, .f32⟩
  | .hbm, ⟨82, _⟩ => ⟨S_, .f32⟩
  | .hbm, ⟨83, _⟩ => ⟨S256x131073, .f32⟩
  | .hbm, ⟨84, _⟩ => ⟨S256x131073, .f32⟩
  | .hbm, ⟨85, _⟩ => ⟨S_, .f32⟩
  | .hbm, ⟨86, _⟩ => ⟨S256, .f32⟩
  | .hbm, ⟨87, _⟩ => ⟨S256x1, .f32⟩
  | .hbm, ⟨88, _⟩ => ⟨S256x1, .f32⟩
  | .hbm, ⟨89, _⟩ => ⟨S256x1, .f32⟩
  | .hbm, ⟨90, _⟩ => ⟨S256x131073, .f32⟩
  | .hbm, ⟨91, _⟩ => ⟨S256x131073, .f32⟩
  | .hbm, ⟨92, _⟩ => ⟨S256x131073, .f32⟩
  | .hbm, ⟨93, _⟩ => ⟨S_, .f32⟩
  | .hbm, ⟨94, _⟩ => ⟨S_, .f32⟩
  | .hbm, ⟨95, _⟩ => ⟨S256x131073, .f32⟩
  | .hbm, ⟨96, _⟩ => ⟨S256x131073, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S256x131073, .i32⟩
  | .hbm, ⟨101, _⟩ => ⟨S_, .i32⟩
  | .hbm, ⟨102, _⟩ => ⟨S_, .i32⟩
  | .hbm, ⟨103, _⟩ => ⟨S_, .f32⟩
  | .hbm, ⟨104, _⟩ => ⟨S_, .f32⟩
  | _, _ => ⟨S256x33x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_c : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_call1_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_c : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_call2_v0 : Ref sig .tc := ⟨.hbm, 40, rfl⟩
abbrev main_call2_v1 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_call3_v0 : Ref sig .tc := ⟨.hbm, 52, rfl⟩
abbrev main_call3_v1 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_call4_v0 : Ref sig .tc := ⟨.hbm, 73, rfl⟩
abbrev main_v45 : Ref sig .tc := ⟨.hbm, 74, rfl⟩
abbrev main_cst_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_11 : Ref sig .tc := ⟨.hbm, 81, rfl⟩
abbrev main_call5_v0 : Ref sig .tc := ⟨.hbm, 82, rfl⟩
abbrev main_call5_v1 : Ref sig .tc := ⟨.hbm, 83, rfl⟩
abbrev main_v51 : Ref sig .tc := ⟨.hbm, 84, rfl⟩
abbrev main_cst_12 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_13 : Ref sig .tc := ⟨.hbm, 93, rfl⟩
abbrev main_call6_v0 : Ref sig .tc := ⟨.hbm, 94, rfl⟩
abbrev main_call6_v1 : Ref sig .tc := ⟨.hbm, 95, rfl⟩
abbrev main_v59 : Ref sig .tc := ⟨.hbm, 96, rfl⟩
abbrev main_cst_14 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_c_15 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩

abbrev nD : Nat := 1
abbrev τ : Topo := Topo.v7x

variable {F : FTy → Type} [FloatOps F]

class Facts₀ : Prop where
  slices_S256x33x64x64_S256x32x64x64_0_0_0_0 : S256x33x64x64.Slices ![0, 0, 0, 0] S256x32x64x64
  slices_S256x33x64x64_S256x1x64x64_0_32_0_0 : S256x33x64x64.Slices ![0, 32, 0, 0] S256x1x64x64
  shapeCasts_S256x1x64x64_S256x64x64 : S256x1x64x64.ShapeCasts S256x64x64
  bcast_S_S256x64x64 : S_.BroadcastsInDim S256x64x64 (![] : Fin 0 → Fin S256x64x64.rank)
  natLt_1_32 : 1 < 32
  reducesTo_S256x64x64_S256_d1_2 : S256x64x64.ReducesTo [1, 2] S256
  h_S_ : 0 < S_.numel
  bcast_S_S256 : S_.BroadcastsInDim S256 (![] : Fin 0 → Fin S256.rank)
  bcast_S_S256x32x64x64 : S_.BroadcastsInDim S256x32x64x64 (![] : Fin 0 → Fin S256x32x64x64.rank)
  shapeCasts_S256x32x64x64_S256x131072 : S256x32x64x64.ShapeCasts S256x131072
  bcast_S_S256x1 : S_.BroadcastsInDim S256x1 (![] : Fin 0 → Fin S256x1.rank)
  concatenates_S256x131072_S256x1_S256x131073_d1 : Shape.Concatenates [S256x131072, S256x1] S256x131073 1
  bcast_S256_S256x1_0 : S256.BroadcastsInDim S256x1 (![0] : Fin 1 → Fin S256x1.rank)
  bcast_S_S256x131073 : S_.BroadcastsInDim S256x131073 (![] : Fin 0 → Fin S256x131073.rank)
  reducesTo_S256x131073_S256_d1 : S256x131073.ReducesTo [1] S256
  bcast_S256x1_S256x131073_0_1 : S256x1.BroadcastsInDim S256x131073 (![0, 1] : Fin 2 → Fin S256x131073.rank)
  reducesTo_S256x131073_S_d0_1 : S256x131073.ReducesTo [0, 1] S_

variable [Facts₀]

class Facts : Prop extends Facts₀ where

variable [Facts]
-- ==== Proof.Spec.lean ====
/-
  The function both programs compute, stated once over the extended reals and independent of either program.

  A sample is 33 channels of 64 × 64 values, for the predictions `p` and the labels `l`. Channel 32 is pooled: both
  arrays are masked by the support of the pooled label, and each is replaced by the mean of its nonzero entries (the sum
  over `max(count, 1)`, or `0` when nothing is nonzero): `pmean`, `lmean`. Channels 0 … 31 are the main ones; an entry
  takes part where its label is not `0`. The logits of a sample are the predictions at the entries that take part,
  together with `pmean`; with `top` their largest and `lse = top + log (Σ exp (logit − top))`, the sample's loss is

      −(Σ l·p + lmean·pmean) + lse · (Σ l + lmean),

  the cross entropy of the labels against the masked log-softmax with the factor `lse` taken out of the sum, and its
  count is the number of entries that take part, plus one. The result is the sum of the losses over the sum of the counts.
  The sums run over the channels, then the rows, then the columns, in that nesting.
-/
import Idealize.ShloMosaic.PureOps.Ideal
import Idealize.ShloMosaic.Lib.ValueIdx

noncomputable section

namespace Cert.MaskedCE

open Idealize.ShloMosaic Idealize.ShloMosaic.ValueIdx

/-- One sample: 33 channels of 64 × 64 extended reals. -/
abbrev Row := Fin 33 → Fin 64 → Fin 64 → EReal

/-- The pooled channel. -/
abbrev pooled : Fin 33 := ⟨32, by omega⟩

/-- `1` where `x ≠ 0`, else `0`: a mask as a number. -/
def nz (x : EReal) : EReal := if x ≠ 0 then 1 else 0

/-- What a logit that takes no part is replaced by: the most negative finite single-precision number. -/
def fill : EReal := Ideal.ofBits .f32 0xFF7FFFFF#32

/-- A sum over a 64 × 64 plane, rows then columns. -/
def sum2 (f : Fin 64 → Fin 64 → EReal) : EReal := ∑ h, ∑ w, f h w

/-- A sum over the 32 main channels, channels then rows then columns. -/
def sum3 (f : Fin 32 → Fin 64 → Fin 64 → EReal) : EReal := ∑ c, ∑ h, ∑ w, f c h w

/-- The largest of the values over the 32 main channels (`⊥` is below them all), in the same nesting. -/
def sup3 (f : Fin 32 → Fin 64 → Fin 64 → EReal) : EReal :=
  Finset.univ.sup fun c => Finset.univ.sup fun h => Finset.univ.sup fun w => f c h w

/-- The pooled label, masked by its own support. -/
def lpool (l : Row) (h w : Fin 64) : EReal := l pooled h w * nz (l pooled h w)

/-- The pooled prediction, masked by the pooled label's support. -/
def ppool (p l : Row) (h w : Fin 64) : EReal := p pooled h w * nz (l pooled h w)

/-- The mean of the nonzero entries from their sum and their number: `s / max(n, 1)` where `n ≠ 0`, else `0`. -/
def meanOf (s n : EReal) : EReal := if n ≠ 0 then Ideal.div s (max n 1) else 0

/-- The pooled label's mean over its nonzero entries. -/
def lmean (l : Row) : EReal := meanOf (sum2 (lpool l)) (sum2 fun h w => nz (lpool l h w))

/-- The pooled prediction's mean over its nonzero entries. -/
def pmean (p l : Row) : EReal := meanOf (sum2 (ppool p l)) (sum2 fun h w => nz (ppool p l h w))

/-- A main channel's label and prediction. -/
def lab (l : Row) (c : Fin 32) (h w : Fin 64) : EReal := l c.castSucc h w
def prd (p : Row) (c : Fin 32) (h w : Fin 64) : EReal := p c.castSucc h w

/-- `Σ l·p` over the main channels. -/
def dotMain (p l : Row) : EReal := sum3 fun c h w => lab l c h w * prd p c h w

/-- `Σ l` over the main channels. -/
def labMain (l : Row) : EReal := sum3 (lab l)

/-- The number of main entries that take part. -/
def cntMain (l : Row) : EReal := sum3 fun c h w => nz (lab l c h w)

/-- A main entry's logit: its prediction where it takes part, else the fill. -/
def logit (p l : Row) (c : Fin 32) (h w : Fin 64) : EReal := if lab l c h w ≠ 0 then prd p c h w else fill

/-- The largest logit: over the main entries and the pooled mean. -/
def top (p l : Row) : EReal := max (sup3 (logit p l)) (pmean p l)

/-- `Σ exp (logit − top)` over the entries that take part and the pooled mean. -/
def expSum (p l : Row) : EReal :=
  (sum3 fun c h w => if lab l c h w ≠ 0 then Ideal.exp (prd p c h w - top p l) else 0) + Ideal.exp (pmean p l - top p l)

/-- The log of the sum of the exponentials of the logits. -/
def lse (p l : Row) : EReal := top p l + Ideal.log (expSum p l)

/-- One sample's loss. -/
def rowLoss (p l : Row) : EReal := (0 - (dotMain p l + lmean l * pmean p l)) + lse p l * (labMain l + lmean l)

/-- One sample's count. -/
def rowCnt (l : Row) : EReal := cntMain l + 1

/-- Sample `b` of a stack of `n` samples. -/
def rowOf {n : Nat} (X : (⟨4, ![n, 33, 64, 64]⟩ : Shape).Idx → EReal) (b : Fin n) : Row := fun c h w => X (ix4 b c h w)

/-- The losses, and the counts, of a stack of samples added up. -/
def lossOver {n : Nat} (P L : (⟨4, ![n, 33, 64, 64]⟩ : Shape).Idx → EReal) : EReal := ∑ b : Fin n, rowLoss (rowOf P b) (rowOf L b)
def cntOver {n : Nat} (L : (⟨4, ![n, 33, 64, 64]⟩ : Shape).Idx → EReal) : EReal := ∑ b : Fin n, rowCnt (rowOf L b)

/-- The result: the summed loss of the 256 samples over their summed count. -/
def result (P L : (⟨4, ![256, 33, 64, 64]⟩ : Shape).Idx → EReal) : EReal := Ideal.div (lossOver P L) (cntOver L)

end Cert.MaskedCE

end
-- ==== Proof.KGrow.lean ====
import proofs.«102884_j59210419143319_1_alg».proof.Proof.Spec
import proofs.«102884_j59210419143319_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx Cert.MaskedCE

namespace Cert.KernelIdeal.Body

open Cert.KernelIdeal Cert.KernelIdeal.Gen

/-- The single-precision word of one denotes the extended real one. -/
theorem one_word : Ideal.ofBits .f32 0x3F800000#32 = 1 := by
  rw [show (1 : EReal) = ((1 : ℝ) : EReal) by norm_cast]
  simp [Ideal.ofBits, Ideal.ieee, -EReal.coe_mul]; norm_num

/-- The comparison bit "`a ≠ 0`", widened to 32 bits and read as a signed integer, is `nz a`. -/
theorem bit_nz (a : EReal) :
    (((((Ideal.cmp .one a (Ideal.ofBits .f32 0x00000000#32)).setWidth 32).toInt : ℝ) : EReal)) = nz a := by
  rw [Ideal.ofBits_zero_f32]
  unfold nz Ideal.cmp
  by_cases h : a = 0
  · simp [h]
  · simp [h]

/-- Channel 32 of a block, cut out and its unit axis dropped, read at `(r, h, w)`. -/
theorem pay7_apply (x : Vec Ideal S8x33x64x64 .f32) (r : Fin 8) (h w : Fin 64) :
    k0_pay7 (F := Ideal) x (ix3 r h w) = x (ix4 r pooled h w) := by
  unfold k0_pay7
  refine (shapeCast_apply _ _ (ix3 r h w) (ix4 r (0 : Fin 1) h w) ?_).trans ?_
  · rw [Shape.rowMajor_val_four, Shape.rowMajor_val_three]
    show ((r.val * 1 + 0) * 64 + h.val) * 64 + w.val = (r.val * 64 + h.val) * 64 + w.val
    omega
  · exact slice4_axis1_apply 32 x _ r (0 : Fin 1) h w pooled rfl

/-- The support of the pooled label as a 0/1 number, read at `(r, h, w)`. -/
theorem pay8_apply (x : Vec Ideal S8x33x64x64 .f32) (r : Fin 8) (h w : Fin 64) :
    k0_pay8 (F := Ideal) x (ix3 r h w) = nz (x (ix4 r pooled h w)) := by
  unfold k0_pay8
  refine Eq.trans ?_ (bit_nz (x (ix4 r pooled h w)))
  show ((((Ideal.cmp .one (k0_pay7 (F := Ideal) x (ix3 r h w)) (Ideal.ofBits .f32 0x00000000#32)).setWidth 32).toInt : ℝ) : EReal) = _
  rw [pay7_apply]

/-- The masked pooled label, read at `(r, h, w)`. -/
theorem pay9_apply (x : Vec Ideal S8x33x64x64 .f32) (r : Fin 8) (h w : Fin 64) :
    k0_pay9 (F := Ideal) x (ix3 r h w) = lpool (rowOf x r) h w := by
  unfold k0_pay9
  show k0_pay7 (F := Ideal) x (ix3 r h w) * k0_pay8 (F := Ideal) x (ix3 r h w) = _
  rw [pay7_apply, pay8_apply]
  rfl

/-- The masked pooled prediction, read at `(r, h, w)`. -/
theorem pay10_apply (x0 x1 : Vec Ideal S8x33x64x64 .f32) (r : Fin 8) (h w : Fin 64) :
    k0_pay10 (F := Ideal) x0 x1 (ix3 r h w) = ppool (rowOf x0 r) (rowOf x1 r) h w := by
  have e := pay7_apply x0 r h w
  unfold k0_pay7 at e
  unfold k0_pay10
  show _ * k0_pay8 (F := Ideal) x1 (ix3 r h w) = _
  rw [pay8_apply]
  exact congrArg (· * nz (x1 (ix4 r pooled h w))) e

/-- An `[8, 64, 64]` array summed over its columns, then over its rows, and viewed `[8, 1]`, read at `(r, 0)`:
    the sum over the plane of sample `r`, rows then columns. -/
theorem sum_plane (v : FVec Ideal S8x64x64 .f32) (r : Fin 8) :
    shapeCast S8x1
        (multiReduction .add [1] S8
          (multiReduction .add [2] S8x64 v 0x00000000#32 reduces_S8x64x64_S8x64 (.inl rfl) rfl)
          0x00000000#32 reduces_S8x64_S8 (.inl rfl) rfl)
        shapeCasts_S8_S8x1 (ix2 r 0)
      = sum2 fun h w => v (ix3 r h w) := by
  refine (shapeCast_apply _ _ (ix2 r (0 : Fin 1)) (ix1 r) ?_).trans ?_
  · rw [Shape.rowMajor_val_two, Shape.rowMajor_val_one]
    show r.val = r.val * 1 + 0
    omega
  refine (Ideal.multiReduction_add_single _ _ _ _ _ _).trans ?_
  unfold sum2
  show ∑ h : Fin 64, _ = ∑ h : Fin 64, _
  refine Finset.sum_congr rfl fun h _ => ?_
  have eh : reduces_S8x64_S8.lift (ix1 r) h = ix2 r h := by
    funext a
    match a with
    | ⟨0, _⟩ => exact Fin.ext rfl
    | ⟨1, _⟩ => exact Fin.ext rfl
  rw [eh]
  refine (Ideal.multiReduction_add_single _ _ _ _ _ _).trans ?_
  show ∑ w : Fin 64, _ = ∑ w : Fin 64, _
  refine Finset.sum_congr rfl fun w _ => ?_
  have ew : reduces_S8x64x64_S8x64.lift (ix2 r h) w = ix3 r h w := by
    funext a
    match a with
    | ⟨0, _⟩ => exact Fin.ext rfl
    | ⟨1, _⟩ => exact Fin.ext rfl
    | ⟨2, _⟩ => exact Fin.ext rfl
  rw [ew]

/-- The sum of the masked pooled label over the plane of sample `r`. -/
theorem pay11_apply (x : Vec Ideal S8x33x64x64 .f32) (r : Fin 8) :
    k0_pay11 (F := Ideal) x (ix2 r 0) = sum2 (lpool (rowOf x r)) := by
  unfold k0_pay11
  refine (sum_plane _ r).trans ?_
  unfold sum2
  exact Finset.sum_congr rfl fun h _ => Finset.sum_congr rfl fun w _ => pay9_apply x r h w

/-- The number of nonzero entries of the masked pooled label over the plane of sample `r`. -/
theorem pay12_apply (x : Vec Ideal S8x33x64x64 .f32) (r : Fin 8) :
    k0_pay12 (F := Ideal) x (ix2 r 0) = sum2 fun h w => nz (lpool (rowOf x r) h w) := by
  unfold k0_pay12
  refine (sum_plane _ r).trans ?_
  unfold sum2
  refine Finset.sum_congr rfl fun h _ => Finset.sum_congr rfl fun w _ => ?_
  refine Eq.trans ?_ (bit_nz (lpool (rowOf x r) h w))
  show ((((Ideal.cmp .one (k0_pay9 (F := Ideal) x (ix3 r h w)) (Ideal.ofBits .f32 0x00000000#32)).setWidth 32).toInt : ℝ) : EReal) = _
  rw [pay9_apply]

/-- The sum of the masked pooled prediction over the plane of sample `r`. -/
theorem pay13_apply (x0 x1 : Vec Ideal S8x33x64x64 .f32) (r : Fin 8) :
    k0_pay13 (F := Ideal) x0 x1 (ix2 r 0) = sum2 (ppool (rowOf x0 r) (rowOf x1 r)) := by
  unfold k0_pay13
  refine (sum_plane _ r).trans ?_
  unfold sum2
  exact Finset.sum_congr rfl fun h _ => Finset.sum_congr rfl fun w _ => pay10_apply x0 x1 r h w

/-- The number of nonzero entries of the masked pooled prediction over the plane of sample `r`. -/
theorem pay14_apply (x0 x1 : Vec Ideal S8x33x64x64 .f32) (r : Fin 8) :
    k0_pay14 (F := Ideal) x0 x1 (ix2 r 0) = sum2 fun h w => nz (ppool (rowOf x0 r) (rowOf x1 r) h w) := by
  unfold k0_pay14
  refine (sum_plane _ r).trans ?_
  unfold sum2
  refine Finset.sum_congr rfl fun h _ => Finset.sum_congr rfl fun w _ => ?_
  refine Eq.trans ?_ (bit_nz (ppool (rowOf x0 r) (rowOf x1 r) h w))
  show ((((Ideal.cmp .one (k0_pay10 (F := Ideal) x0 x1 (ix3 r h w)) (Ideal.ofBits .f32 0x00000000#32)).setWidth 32).toInt : ℝ) : EReal) = _
  rw [pay10_apply]

/-- A select on the bit "`n ≠ 0`" between `s / max n 1` and `0` is the mean of the nonzero entries. -/
theorem select_mean (s n : EReal) :
    Scalar.select (Ideal.cmp .one n (Ideal.ofBits .f32 0x00000000#32))
        (Ideal.div s (max n (Ideal.ofBits .f32 0x3F800000#32))) (Ideal.ofBits .f32 0x00000000#32)
      = meanOf s n := by
  rw [Ideal.ofBits_zero_f32, one_word]
  unfold meanOf
  by_cases h : n = 0
  · have hb : Ideal.cmp .one n 0 = 0#1 := by unfold Ideal.cmp; simp [h]
    rw [hb, select_zero, if_neg (not_not.mpr h)]
  · have hb : Ideal.cmp .one n 0 = 1#1 := by unfold Ideal.cmp; simp [h]
    rw [hb, select_one, if_pos h]

/-- The first mean of the body, read at an index. -/
theorem pay15_apply (s n : FVec Ideal S8x1 .f32) (j : S8x1.Idx) :
    k0_pay15 (F := Ideal) s n j = meanOf (s j) (n j) := by
  unfold k0_pay15
  exact select_mean (s j) (n j)

/-- The second mean of the body, read at an index. -/
theorem pay16_apply (s n : FVec Ideal S8x1 .f32) (j : S8x1.Idx) :
    k0_pay16 (F := Ideal) s n j = meanOf (s j) (n j) := by
  unfold k0_pay16
  exact select_mean (s j) (n j)

/-- The pooled label's mean of sample `r` of the block. -/
theorem lmean_apply (x1 : Vec Ideal S8x33x64x64 .f32) (r : Fin 8) :
    k0_pay15 (F := Ideal) (k0_pay11 x1) (k0_pay12 x1) (ix2 r 0) = lmean (rowOf x1 r) := by
  rw [pay15_apply, pay11_apply, pay12_apply]
  rfl

/-- The pooled prediction's mean of sample `r` of the block. -/
theorem pmean_apply (x0 x1 : Vec Ideal S8x33x64x64 .f32) (r : Fin 8) :
    k0_pay16 (F := Ideal) (k0_pay13 x0 x1) (k0_pay14 x0 x1) (ix2 r 0) = pmean (rowOf x0 r) (rowOf x1 r) := by
  rw [pay16_apply, pay13_apply, pay14_apply]
  rfl

end Cert.KernelIdeal.Body

end
-- ==== Proof.KMain.lean ====
import proofs.«102884_j59210419143319_1_alg».proof.Proof.Spec
import proofs.«102884_j59210419143319_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx Cert.MaskedCE

namespace Cert.KernelIdeal.Body

open Cert.KernelIdeal Cert.KernelIdeal.Gen

/-! ### Literal words, and the bit of "x ≠ 0" -/

/-- The word of 1.0. -/
theorem w_one : Ideal.ofBits .f32 0x3F800000#32 = 1 := by
  simp [Ideal.ofBits, Ideal.ieee, -EReal.coe_mul]; norm_num

/-- The word of −∞ is the bottom element. -/
theorem w_bot : Ideal.ofBits .f32 0xFF800000#32 = ⊥ := by simp [Ideal.ofBits, Ideal.ieee]

theorem cmp_one_of_ne {x : EReal} (h : x ≠ 0) : Ideal.cmp .one x 0 = 1#1 := by simp [Ideal.cmp, h]
theorem cmp_one_of_eq {x : EReal} (h : x = 0) : Ideal.cmp .one x 0 = 0#1 := by simp [Ideal.cmp, h]

/-- A select on the bit of "x ≠ 0" is the `if`. -/
theorem select_nz {α : Type} (x : EReal) (a b : α) :
    Scalar.select (Ideal.cmp .one x 0) a b = if x ≠ 0 then a else b := by
  by_cases h : x ≠ 0
  · rw [cmp_one_of_ne h, select_one, if_pos h]
  · rw [cmp_one_of_eq (not_not.mp h), select_zero, if_neg h]

/-- The bit of "x ≠ 0", widened to a word and converted, is the mask as a number. -/
theorem sitofp_nz (x : EReal) :
    (FloatOps.sitofp (F := Ideal) .f32 ((Ideal.cmp .one x 0).setWidth 32) : EReal) = nz x := by
  unfold nz
  by_cases h : x ≠ 0
  · rw [cmp_one_of_ne h, if_pos h]
    show ((((1#1 : BitVec 1).setWidth 32).toInt : ℝ) : EReal) = 1
    have e : ((1#1 : BitVec 1).setWidth 32).toInt = 1 := by decide
    rw [e]; simp
  · rw [cmp_one_of_eq (not_not.mp h), if_neg h]
    show ((((0#1 : BitVec 1).setWidth 32).toInt : ℝ) : EReal) = 0
    have e : ((0#1 : BitVec 1).setWidth 32).toInt = 0 := by decide
    rw [e]; simp

/-! ### The main channels of a block, and the bits of its labels -/

theorem pay5_apply (x : Vec Ideal S8x33x64x64 .f32) (r : Fin 8) (c : Fin 32) (h w : Fin 64) :
    k0_pay5 (F := Ideal) x (ix4 r c h w) = x (ix4 r c.castSucc h w) :=
  slice4_axis1_apply 0 x slices_S8x33x64x64_o0_0_0_0_S8x32x64x64 r c h w c.castSucc (Nat.zero_add _).symm

theorem pay6_apply (x : Vec Ideal S8x33x64x64 .f32) (r : Fin 8) (c : Fin 32) (h w : Fin 64) :
    k0_pay6 (F := Ideal) x (ix4 r c h w) = x (ix4 r c.castSucc h w) :=
  slice4_axis1_apply 0 x slices_S8x33x64x64_o0_0_0_0_S8x32x64x64 r c h w c.castSucc (Nat.zero_add _).symm

theorem pay17_apply (v8 : FVec Ideal S8x32x64x64 .f32) (i : S8x32x64x64.Idx) :
    k0_pay17 (F := Ideal) v8 i = Ideal.cmp .one (v8 i) 0 := by
  show Ideal.cmp .one (v8 i) (Ideal.ofBits .f32 0x00000000#32) = _
  rw [Ideal.ofBits_zero_f32]

/-! ### Casts and the broadcast read at an index -/

theorem cast_8_8x1 {α : Type} (v : S8.Idx → α) (h : S8.ShapeCasts S8x1) (r : Fin 8) (u : Fin 1) :
    shapeCast S8x1 v h (ix2 r u) = v (ix1 r) :=
  shapeCast_apply v h _ _ (by
    have hu : u.val = 0 := by omega
    rw [Shape.rowMajor_val_one, Shape.rowMajor_val_two]
    show r.val = r.val * 1 + u.val
    omega)

theorem cast_1_1x1 {α : Type} (v : S1.Idx → α) (h : S1.ShapeCasts S1x1) (a u : Fin 1) :
    shapeCast S1x1 v h (ix2 a u) = v (ix1 0) :=
  shapeCast_apply v h _ _ (by
    have hu : u.val = 0 := by omega
    have ha : a.val = 0 := by omega
    rw [Shape.rowMajor_val_one, Shape.rowMajor_val_two]
    show (0 : Fin 1).val = a.val * 1 + u.val
    simp [ha, hu])

theorem cast_8x1_8x1x1x1 {α : Type} (v : S8x1.Idx → α) (h : S8x1.ShapeCasts S8x1x1x1) (r : Fin 8) (a b c : Fin 1) :
    shapeCast S8x1x1x1 v h (ix4 r a b c) = v (ix2 r 0) :=
  shapeCast_apply v h _ _ (by
    have ha : a.val = 0 := by omega
    have hb : b.val = 0 := by omega
    have hc : c.val = 0 := by omega
    rw [Shape.rowMajor_val_two, Shape.rowMajor_val_four]
    show r.val * 1 + (0 : Fin 1).val = ((r.val * 1 + a.val) * 1 + b.val) * 1 + c.val
    simp [ha, hb, hc])

theorem bcast_8x1x1x1 {α : Type} (v : S8x1x1x1.Idx → α) (h : S8x1x1x1.Broadcasts S8x32x64x64)
    (r : Fin 8) (c : Fin 32) (hh w : Fin 64) :
    broadcastTo S8x32x64x64 v h (ix4 r c hh w) = v (ix4 r 0 0 0) := by
  refine broadcastTo_apply v h (ix4 r c hh w) (ix4 r 0 0 0) fun ax => ?_
  match ax with
  | ⟨0, _⟩ => rfl
  | ⟨1, _⟩ => rfl
  | ⟨2, _⟩ => rfl
  | ⟨3, _⟩ => rfl

/-! ### One-axis reductions read at an index given by coordinates -/

theorem add_ax3 (v : FVec Ideal S8x32x64x64 .f32) (hr : S8x32x64x64.Reduces [3] S8x32x64) (hφ : FKind.Formats .f32)
    (hacc : (0x00000000#32 : BitVec 32) = FKind.add.neutral .f32 hφ) (r : Fin 8) (c : Fin 32) (h : Fin 64) :
    multiReduction .add [3] S8x32x64 v 0x00000000#32 hr hφ hacc (ix3 r c h) = ∑ w : Fin 64, v (ix4 r c h w) := by
  refine (Ideal.multiReduction_add_single v _ hr hφ hacc _).trans ?_
  show ∑ k : Fin 64, v (hr.lift (ix3 r c h) k) = _
  refine Finset.sum_congr rfl fun k _ => congrArg v (funext fun e => ?_)
  match e with
  | ⟨0, _⟩ => exact Fin.ext rfl
  | ⟨1, _⟩ => exact Fin.ext rfl
  | ⟨2, _⟩ => exact Fin.ext rfl
  | ⟨3, _⟩ => exact Fin.ext rfl

theorem add_ax2 (v : FVec Ideal S8x32x64 .f32) (hr : S8x32x64.Reduces [2] S8x32) (hφ : FKind.Formats .f32)
    (hacc : (0x00000000#32 : BitVec 32) = FKind.add.neutral .f32 hφ) (r : Fin 8) (c : Fin 32) :
    multiReduction .add [2] S8x32 v 0x00000000#32 hr hφ hacc (ix2 r c) = ∑ h : Fin 64, v (ix3 r c h) := by
  refine (Ideal.multiReduction_add_single v _ hr hφ hacc _).trans ?_
  show ∑ k : Fin 64, v (hr.lift (ix2 r c) k) = _
  refine Finset.sum_congr rfl fun k _ => congrArg v (funext fun e => ?_)
  match e with
  | ⟨0, _⟩ => exact Fin.ext rfl
  | ⟨1, _⟩ => exact Fin.ext rfl
  | ⟨2, _⟩ => exact Fin.ext rfl

theorem add_ax1 (v : FVec Ideal S8x32 .f32) (hr : S8x32.Reduces [1] S8) (hφ : FKind.Formats .f32)
    (hacc : (0x00000000#32 : BitVec 32) = FKind.add.neutral .f32 hφ) (r : Fin 8) :
    multiReduction .add [1] S8 v 0x00000000#32 hr hφ hacc (ix1 r) = ∑ c : Fin 32, v (ix2 r c) := by
  refine (Ideal.multiReduction_add_single v _ hr hφ hacc _).trans ?_
  show ∑ k : Fin 32, v (hr.lift (ix1 r) k) = _
  refine Finset.sum_congr rfl fun k _ => congrArg v (funext fun e => ?_)
  match e with
  | ⟨0, _⟩ => exact Fin.ext rfl
  | ⟨1, _⟩ => exact Fin.ext rfl

/-- The sum over the eight samples of a column. -/
theorem add_ax0 (v : FVec Ideal S8x1 .f32) (hr : S8x1.Reduces [0] S1) (hφ : FKind.Formats .f32)
    (hacc : (0x00000000#32 : BitVec 32) = FKind.add.neutral .f32 hφ) (u : Fin 1) :
    multiReduction .add [0] S1 v 0x00000000#32 hr hφ hacc (ix1 u) = ∑ r : Fin 8, v (ix2 r 0) := by
  refine (Ideal.multiReduction_add_single v _ hr hφ hacc _).trans ?_
  show ∑ k : Fin 8, v (hr.lift (ix1 u) k) = _
  refine Finset.sum_congr rfl fun k _ => congrArg v (funext fun e => ?_)
  match e with
  | ⟨0, _⟩ => exact Fin.ext rfl
  | ⟨1, _⟩ => exact Fin.ext (by have := u.isLt; show u.val = 0; omega)

/-- Three one-axis sums and the cast to a column: the sum over a sample's main entries, channels then rows then columns. -/
theorem sum3_apply (v : FVec Ideal S8x32x64x64 .f32) (r : Fin 8) (u : Fin 1) :
    shapeCast S8x1 (multiReduction .add [1] S8 (multiReduction .add [2] S8x32 (multiReduction .add [3] S8x32x64 v
        0x00000000#32 reduces_S8x32x64x64_S8x32x64 (.inl rfl) rfl) 0x00000000#32 reduces_S8x32x64_S8x32 (.inl rfl) rfl)
        0x00000000#32 reduces_S8x32_S8 (.inl rfl) rfl) shapeCasts_S8_S8x1 (ix2 r u)
      = sum3 fun c h w => v (ix4 r c h w) := by
  refine (cast_8_8x1 _ _ r u).trans ?_
  refine (add_ax1 _ _ _ _ r).trans ?_
  unfold sum3
  refine Finset.sum_congr rfl fun c _ => ?_
  refine (add_ax2 _ _ _ _ r c).trans ?_
  refine Finset.sum_congr rfl fun h _ => ?_
  exact add_ax3 _ _ _ _ r c h

/-- The fold of `max` from the bottom element is the supremum. -/
theorem fold_max_bot {ι : Type} [Fintype ι] (f : ι → EReal) :
    (Finset.univ : Finset ι).fold max (Ideal.ofBits .f32 0xFF800000#32) f = Finset.univ.sup f := by
  rw [w_bot]; rfl

theorem max_ax3 (v : FVec Ideal S8x32x64x64 .f32) (hr : S8x32x64x64.Reduces [3] S8x32x64) (hφ : FKind.Formats .f32)
    (hacc : (0xFF800000#32 : BitVec 32) = FKind.maximumf.neutral .f32 hφ) (r : Fin 8) (c : Fin 32) (h : Fin 64) :
    multiReduction .maximumf [3] S8x32x64 v 0xFF800000#32 hr hφ hacc (ix3 r c h)
      = Finset.univ.sup fun w : Fin 64 => v (ix4 r c h w) := by
  refine (Ideal.multiReduction_maximumf_single v _ hr hφ hacc _).trans ?_
  show (Finset.univ : Finset (Fin 64)).fold max (Ideal.ofBits .f32 0xFF800000#32) (v ∘ hr.lift (ix3 r c h)) = _
  refine (fold_max_bot _).trans ?_
  refine congrArg Finset.univ.sup (funext fun k => congrArg v (funext fun e => ?_))
  match e with
  | ⟨0, _⟩ => exact Fin.ext rfl
  | ⟨1, _⟩ => exact Fin.ext rfl
  | ⟨2, _⟩ => exact Fin.ext rfl
  | ⟨3, _⟩ => exact Fin.ext rfl

theorem max_ax2 (v : FVec Ideal S8x32x64 .f32) (hr : S8x32x64.Reduces [2] S8x32) (hφ : FKind.Formats .f32)
    (hacc : (0xFF800000#32 : BitVec 32) = FKind.maximumf.neutral .f32 hφ) (r : Fin 8) (c : Fin 32) :
    multiReduction .maximumf [2] S8x32 v 0xFF800000#32 hr hφ hacc (ix2 r c)
      = Finset.univ.sup fun h : Fin 64 => v (ix3 r c h) := by
  refine (Ideal.multiReduction_maximumf_single v _ hr hφ hacc _).trans ?_
  show (Finset.univ : Finset (Fin 64)).fold max (Ideal.ofBits .f32 0xFF800000#32) (v ∘ hr.lift (ix2 r c)) = _
  refine (fold_max_bot _).trans ?_
  refine congrArg Finset.univ.sup (funext fun k => congrArg v (funext fun e => ?_))
  match e with
  | ⟨0, _⟩ => exact Fin.ext rfl
  | ⟨1, _⟩ => exact Fin.ext rfl
  | ⟨2, _⟩ => exact Fin.ext rfl

theorem max_ax1 (v : FVec Ideal S8x32 .f32) (hr : S8x32.Reduces [1] S8) (hφ : FKind.Formats .f32)
    (hacc : (0xFF800000#32 : BitVec 32) = FKind.maximumf.neutral .f32 hφ) (r : Fin 8) :
    multiReduction .maximumf [1] S8 v 0xFF800000#32 hr hφ hacc (ix1 r)
      = Finset.univ.sup fun c : Fin 32 => v (ix2 r c) := by
  refine (Ideal.multiReduction_maximumf_single v _ hr hφ hacc _).trans ?_
  show (Finset.univ : Finset (Fin 32)).fold max (Ideal.ofBits .f32 0xFF800000#32) (v ∘ hr.lift (ix1 r)) = _
  refine (fold_max_bot _).trans ?_
  refine congrArg Finset.univ.sup (funext fun k => congrArg v (funext fun e => ?_))
  match e with
  | ⟨0, _⟩ => exact Fin.ext rfl
  | ⟨1, _⟩ => exact Fin.ext rfl

/-- Three one-axis maxima from −∞ and the cast to a column: the largest of a sample's main entries. -/
theorem max3_apply (v : FVec Ideal S8x32x64x64 .f32) (r : Fin 8) (u : Fin 1) :
    shapeCast S8x1 (multiReduction .maximumf [1] S8 (multiReduction .maximumf [2] S8x32 (multiReduction .maximumf [3] S8x32x64 v
        0xFF800000#32 reduces_S8x32x64x64_S8x32x64 (.inl rfl) rfl) 0xFF800000#32 reduces_S8x32x64_S8x32 (.inl rfl) rfl)
        0xFF800000#32 reduces_S8x32_S8 (.inl rfl) rfl) shapeCasts_S8_S8x1 (ix2 r u)
      = sup3 fun c h w => v (ix4 r c h w) := by
  refine (cast_8_8x1 _ _ r u).trans ?_
  refine (max_ax1 _ _ _ _ r).trans ?_
  unfold sup3
  refine congrArg Finset.univ.sup (funext fun c => ?_)
  refine (max_ax2 _ _ _ _ r c).trans ?_
  refine congrArg Finset.univ.sup (funext fun h => ?_)
  exact max_ax3 _ _ _ _ r c h

theorem dotMain_apply (x0 x1 : Vec Ideal S8x33x64x64 .f32) (r : Fin 8) :
    k0_pay18 (F := Ideal) (k0_pay5 x0) (k0_pay6 x1) (ix2 r 0) = dotMain (rowOf x0 r) (rowOf x1 r) := by
  unfold k0_pay18
  refine (sum3_apply _ r 0).trans ?_
  unfold dotMain
  refine congrArg sum3 (funext fun c => funext fun h => funext fun w => ?_)
  show k0_pay6 x1 (ix4 r c h w) * k0_pay5 x0 (ix4 r c h w) = _
  rw [pay5_apply, pay6_apply]
  rfl

theorem labMain_apply (x1 : Vec Ideal S8x33x64x64 .f32) (r : Fin 8) :
    k0_pay19 (F := Ideal) (k0_pay6 x1) (ix2 r 0) = labMain (rowOf x1 r) := by
  unfold k0_pay19
  refine (sum3_apply _ r 0).trans ?_
  unfold labMain
  refine congrArg sum3 (funext fun c => funext fun h => funext fun w => ?_)
  exact pay6_apply x1 r c h w

theorem cntMain_apply (x1 : Vec Ideal S8x33x64x64 .f32) (r : Fin 8) :
    k0_pay20 (F := Ideal) (k0_pay6 x1) (ix2 r 0) = cntMain (rowOf x1 r) := by
  unfold k0_pay20
  refine (sum3_apply _ r 0).trans ?_
  unfold cntMain
  refine congrArg sum3 (funext fun c => funext fun h => funext fun w => ?_)
  show FloatOps.sitofp (F := Ideal) .f32 ((k0_pay17 (k0_pay6 x1) (ix4 r c h w)).setWidth 32) = _
  rw [pay17_apply, pay6_apply]
  exact sitofp_nz _

/-- The largest logit of sample `r`, the pooled mean being whatever `k0_pay16 v29 v36` holds at (r, 0). -/
theorem top_apply (x0 x1 : Vec Ideal S8x33x64x64 .f32) (v29 v36 : FVec Ideal S8x1 .f32) (r : Fin 8) :
    k0_pay21 (F := Ideal) (k0_pay5 x0) (k0_pay6 x1) v29 v36 (ix2 r 0)
      = max (sup3 (logit (rowOf x0 r) (rowOf x1 r))) (k0_pay16 (F := Ideal) v29 v36 (ix2 r 0)) := by
  unfold k0_pay21
  show max (shapeCast S8x1 _ shapeCasts_S8_S8x1 (ix2 r 0)) (k0_pay16 v29 v36 (ix2 r 0)) = _
  refine congrArg (fun t => max t (k0_pay16 (F := Ideal) v29 v36 (ix2 r 0))) ?_
  refine (max3_apply _ r 0).trans ?_
  refine congrArg sup3 (funext fun c => funext fun h => funext fun w => ?_)
  show Scalar.select (k0_pay17 (k0_pay6 x1) (ix4 r c h w)) (k0_pay5 x0 (ix4 r c h w)) (Ideal.ofBits .f32 0xFF7FFFFF#32) = _
  rw [pay17_apply, pay6_apply, pay5_apply, select_nz]
  rfl

/-- Its broadcast over the sample's main entries. -/
theorem topB_apply (x0 x1 : Vec Ideal S8x33x64x64 .f32) (v29 v36 : FVec Ideal S8x1 .f32) (r : Fin 8) (c : Fin 32) (h w : Fin 64) :
    k0_pay22 (F := Ideal) (k0_pay5 x0) (k0_pay6 x1) v29 v36 (ix4 r c h w)
      = k0_pay21 (F := Ideal) (k0_pay5 x0) (k0_pay6 x1) v29 v36 (ix2 r 0) := by
  unfold k0_pay22
  refine (bcast_8x1x1x1 _ _ r c h w).trans ?_
  exact cast_8x1_8x1x1x1 _ _ r 0 0 0

/-- What the body writes back to its loss accumulator, read at its one index, over any operands: the accumulator plus
    the sum over the eight samples of the per-sample term, the inner sum being over the sample's main entries. -/
theorem pay1_apply (v5 v76 : FVec Ideal S8x32x64x64 .f32) (v43 v50 v57 v61 v74 : FVec Ideal S8x1 .f32)
    (v52 : IVec S8x32x64x64 1) (acc : Vec Ideal S1x1 .f32) :
    k0_pay1 (F := Ideal) v5 v43 v50 v52 v57 v61 v74 v76 acc (ix2 0 0)
      = acc (ix2 0 0) + ∑ r : Fin 8, ((Ideal.ofBits .f32 0x00000000#32 - (v57 (ix2 r 0) + v43 (ix2 r 0) * v50 (ix2 r 0)))
          + (v74 (ix2 r 0) + Ideal.log ((sum3 fun c h w => Scalar.select (v52 (ix4 r c h w))
                (Ideal.exp (v5 (ix4 r c h w) - v76 (ix4 r c h w))) (Ideal.ofBits .f32 0x00000000#32))
              + Ideal.exp (v50 (ix2 r 0) - v74 (ix2 r 0)))) * (v61 (ix2 r 0) + v43 (ix2 r 0))) := by
  unfold k0_pay1
  show shapeCast S1x1 acc shapeCasts_S1x1_S1x1 (ix2 0 0) + shapeCast S1x1 _ shapeCasts_S1_S1x1 (ix2 0 0) = _
  rw [shapeCast_self]
  refine congrArg (acc (ix2 0 0) + ·) ?_
  refine (cast_1_1x1 _ _ 0 0).trans ?_
  refine (add_ax0 _ _ _ _ 0).trans ?_
  refine Finset.sum_congr rfl fun r _ => ?_
  show (Ideal.ofBits .f32 0x00000000#32 - (v57 (ix2 r 0) + v43 (ix2 r 0) * v50 (ix2 r 0)))
      + (v74 (ix2 r 0) + Ideal.log (shapeCast S8x1 _ shapeCasts_S8_S8x1 (ix2 r 0)
          + Ideal.exp (v50 (ix2 r 0) - v74 (ix2 r 0)))) * (v61 (ix2 r 0) + v43 (ix2 r 0)) = _
  rw [sum3_apply]
  rfl

/-- The sum of the exponentials over the main entries that take part, the pooled mean being what `k0_pay16 v29 v36`
    holds at (r, 0). -/
theorem expMain_apply (x0 x1 : Vec Ideal S8x33x64x64 .f32) (v29 v36 : FVec Ideal S8x1 .f32) (r : Fin 8)
    (hp : k0_pay16 (F := Ideal) v29 v36 (ix2 r 0) = pmean (rowOf x0 r) (rowOf x1 r)) :
    (sum3 fun c h w => Scalar.select (k0_pay17 (F := Ideal) (k0_pay6 x1) (ix4 r c h w))
        (Ideal.exp (k0_pay5 (F := Ideal) x0 (ix4 r c h w) - k0_pay22 (F := Ideal) (k0_pay5 x0) (k0_pay6 x1) v29 v36 (ix4 r c h w)))
        (Ideal.ofBits .f32 0x00000000#32))
      = sum3 fun c h w => if lab (rowOf x1 r) c h w ≠ 0
          then Ideal.exp (prd (rowOf x0 r) c h w - top (rowOf x0 r) (rowOf x1 r)) else 0 := by
  refine congrArg sum3 (funext fun c => funext fun h => funext fun w => ?_)
  rw [pay17_apply, pay6_apply, pay5_apply, topB_apply, top_apply, hp, select_nz, Ideal.ofBits_zero_f32]
  rfl

/-- The loss the body adds to its accumulator `acc`: the block's eight samples' losses, given that `v43` and
    `k0_pay16 v29 v36` hold the two pooled means of each sample. -/
theorem loss_apply (x0 x1 : Vec Ideal S8x33x64x64 .f32) (v43 v29 v36 : FVec Ideal S8x1 .f32) (acc : Vec Ideal S1x1 .f32)
    (hl : ∀ r : Fin 8, v43 (ix2 r 0) = lmean (rowOf x1 r))
    (hp : ∀ r : Fin 8, k0_pay16 (F := Ideal) v29 v36 (ix2 r 0) = pmean (rowOf x0 r) (rowOf x1 r)) :
    k0_pay1 (F := Ideal) (k0_pay5 x0) v43 (k0_pay16 v29 v36) (k0_pay17 (k0_pay6 x1)) (k0_pay18 (k0_pay5 x0) (k0_pay6 x1))
        (k0_pay19 (k0_pay6 x1)) (k0_pay21 (k0_pay5 x0) (k0_pay6 x1) v29 v36) (k0_pay22 (k0_pay5 x0) (k0_pay6 x1) v29 v36) acc (ix2 0 0)
      = acc (ix2 0 0) + ∑ r : Fin 8, rowLoss (rowOf x0 r) (rowOf x1 r) := by
  refine (pay1_apply _ _ _ _ _ _ _ _ _).trans ?_
  refine congrArg (acc (ix2 0 0) + ·) (Finset.sum_congr rfl fun r _ => ?_)
  rw [expMain_apply x0 x1 v29 v36 r (hp r), Ideal.ofBits_zero_f32, dotMain_apply, labMain_apply, top_apply, hl r, hp r]
  rfl

/-- The count the body adds to its accumulator. -/
theorem count_apply (x1 : Vec Ideal S8x33x64x64 .f32) (acc : Vec Ideal S1x1 .f32) :
    k0_pay2 (F := Ideal) (k0_pay20 (k0_pay6 x1)) acc (ix2 0 0) = acc (ix2 0 0) + ∑ r : Fin 8, rowCnt (rowOf x1 r) := by
  unfold k0_pay2
  show shapeCast S1x1 acc shapeCasts_S1x1_S1x1 (ix2 0 0) + shapeCast S1x1 _ shapeCasts_S1_S1x1 (ix2 0 0) = _
  rw [shapeCast_self]
  refine congrArg (acc (ix2 0 0) + ·) ?_
  refine (cast_1_1x1 _ _ 0 0).trans ?_
  refine (add_ax0 _ _ _ _ 0).trans ?_
  refine Finset.sum_congr rfl fun r _ => ?_
  show k0_pay20 (k0_pay6 x1) (ix2 r 0) + Ideal.ofBits .f32 0x3F800000#32 = _
  rw [cntMain_apply, w_one]
  rfl

end Cert.KernelIdeal.Body

end
-- ==== Proof.KBody.lean ====
/-
  What one run of the kernel body leaves in its two accumulators, as values.

  The body handles a block of eight samples. At the first grid point it zeroes both accumulators first; at every point it
  then adds the block's summed loss to the first accumulator and the block's summed count to the second. So after the body
  an accumulator holds what it held before (zero, at the first point) plus the eight samples' losses, or counts. The
  arithmetic of one sample is read in the modules this one imports; here the body's stores are read back: each
  accumulator is one [1,1] buffer written through its whole rectangle, so the last store is what it holds.
-/
import proofs.«102884_j59210419143319_1_alg».proof.Proof.Gen.KernelIdeal.Frame
import proofs.«102884_j59210419143319_1_alg».proof.Proof.KGrow
import proofs.«102884_j59210419143319_1_alg».proof.Proof.KMain
import Idealize.ShloMosaic.Lib.Pipeline.Value
import Idealize.ShloMosaic.Lib.Tactic

noncomputable section

open Idealize.ShloMosaic Idealize.ShloMosaic.TcCoe Idealize.SL.Sem Idealize.ShloMosaic.ValueIdx Cert.MaskedCE

namespace Cert.KernelIdeal.Body

open Cert.KernelIdeal Cert.KernelIdeal.Gen

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The block's summed loss and summed count. -/
def blockLoss (x0 x1 : Vec Ideal S8x33x64x64 .f32) : EReal := ∑ r : Fin 8, rowLoss (rowOf x0 r) (rowOf x1 r)
def blockCnt (x1 : Vec Ideal S8x33x64x64 .f32) : EReal := ∑ r : Fin 8, rowCnt (rowOf x1 r)

/-- The zero the first point stores is `0`. -/
theorem zero3 : k0_pay3 (F := Ideal) (ix2 0 0) = 0 := by
  unfold k0_pay3; exact Ideal.ofBits_zero_f32
theorem zero4 : k0_pay4 (F := Ideal) (ix2 0 0) = 0 := by
  unfold k0_pay4; exact Ideal.ofBits_zero_f32

/-- At a later point the loss accumulator holding `xo2` ends at `xo2` plus the block's loss. -/
theorem lossB (c : Dev nD) (i : grid0.Coords) (a1 : Memref sig .tc .vmem S8x33x64x64 .f32) (h1 : a1.IsWhole)
    (a2 : Memref sig .tc .vmem S8x33x64x64 .f32) (h2 : a2.IsWhole) (a3 : Memref sig .tc .vmem S1x1 .f32) (h3 : a3.IsWhole)
    (a4 : Memref sig .tc .vmem S1x1 .f32) (h4 : a4.IsWhole) (hc : ¬cond0_0 i)
    (x0 x1 : Vec Ideal S8x33x64x64 .f32) (xo2 xo3 : Vec Ideal S1x1 .f32) :
    out0_B_2 (F := Ideal) c i a1 h1 a2 h2 a3 h3 a4 h4 hc x0 x1 xo2 xo3 (ix2 0 0) = xo2 (ix2 0 0) + blockLoss x0 x1 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz2]
  simp only [View.readAt_eq_ld, h1.read_unread, h2.read_unread, h3.read_unread, h4.read_unread,
    View.ld_unit_zero (S := S8x33x64x64) hz4, View.ld_unit_zero (S := S1x1) hz2]
  exact loss_apply x0 x1 _ _ _ xo2 (fun r => lmean_apply x1 r) (fun r => pmean_apply x0 x1 r)

/-- At a later point the count accumulator holding `xo3` ends at `xo3` plus the block's count. -/
theorem cntB (c : Dev nD) (i : grid0.Coords) (a1 : Memref sig .tc .vmem S8x33x64x64 .f32) (h1 : a1.IsWhole)
    (a2 : Memref sig .tc .vmem S8x33x64x64 .f32) (h2 : a2.IsWhole) (a3 : Memref sig .tc .vmem S1x1 .f32) (h3 : a3.IsWhole)
    (a4 : Memref sig .tc .vmem S1x1 .f32) (h4 : a4.IsWhole) (hc : ¬cond0_0 i)
    (x0 x1 : Vec Ideal S8x33x64x64 .f32) (xo2 xo3 : Vec Ideal S1x1 .f32) :
    out0_B_3 (F := Ideal) c i a1 h1 a2 h2 a3 h3 a4 h4 hc x0 x1 xo2 xo3 (ix2 0 0) = xo3 (ix2 0 0) + blockCnt x1 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz2]
  simp only [View.readAt_eq_ld, h1.read_unread, h2.read_unread, h3.read_unread, h4.read_unread,
    View.ld_unit_zero (S := S8x33x64x64) hz4, View.ld_unit_zero (S := S1x1) hz2]
  exact count_apply x1 xo3

/-- At the first point the loss accumulator ends at the block's loss: the zero stored first is what the body reads back. -/
theorem lossA (c : Dev nD) (i : grid0.Coords) (a1 : Memref sig .tc .vmem S8x33x64x64 .f32) (h1 : a1.IsWhole)
    (a2 : Memref sig .tc .vmem S8x33x64x64 .f32) (h2 : a2.IsWhole) (a3 : Memref sig .tc .vmem S1x1 .f32) (h3 : a3.IsWhole)
    (a4 : Memref sig .tc .vmem S1x1 .f32) (h4 : a4.IsWhole) (hc : cond0_0 i)
    (x0 x1 : Vec Ideal S8x33x64x64 .f32) :
    out0_A_2 (F := Ideal) c i a1 h1 a2 h2 a3 h3 a4 h4 hc x0 x1 (ix2 0 0) = blockLoss x0 x1 := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1x1) hz2]
  simp only [View.readCov_unit_zero (S := S1x1) _ hz2, View.readAt_eq_ld, h1.read_unread, h2.read_unread,
    View.ld_unit_zero (S := S8x33x64x64) hz4]
  refine (loss_apply x0 x1 _ _ _ _ (fun r => lmean_apply x1 r) (fun r => pmean_apply x0 x1 r)).trans ?_
  rw [zero3, zero_add]; rfl

/-- At the first point the count accumulator ends at the block's count. -/
theorem cntA (c : Dev nD) (i : grid0.Coords) (a1 : Memref sig .tc .vmem S8x33x64x64 .f32) (h1 : a1.IsWhole)
    (a2 : Memref sig .tc .vmem S8x33x64x64 .f32) (h2 : a2.IsWhole) (a3 : Memref sig .tc .vmem S1x1 .f32) (h3 : a3.IsWhole)
    (a4 : Memref sig .tc .vmem S1x1 .f32) (h4 : a4.IsWhole) (hc : cond0_0 i)
    (x0 x1 : Vec Ideal S8x33x64x64 .f32) :
    out0_A_3 (F := Ideal) c i a1 h1 a2 h2 a3 h3 a4 h4 hc x0 x1 (ix2 0 0) = blockCnt x1 := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1) hz2]
  simp only [View.readCov_unit_zero (S := S1x1) _ hz2, View.readAt_eq_ld, h1.read_unread, h2.read_unread,
    View.ld_unit_zero (S := S8x33x64x64) hz4]
  refine (count_apply x1 _).trans ?_
  rw [zero4, zero_add]; rfl

end Cert.KernelIdeal.Body

end
-- ==== Proof.KAcc.lean ====
/-
  What the two accumulators hold after the last grid point.

  The kernel visits 32 grid points; point `t` is handed samples `8t … 8t + 7` of the two argument arrays. At the first
  point an accumulator ends at the block's total, at every later point at what the point before left plus the block's
  total: by induction on the point it holds, after point `n`, the totals of blocks `0 … n` added up. A block's total is
  the sum over its eight samples, and sample `r` of block `t` is sample `8t + r` of the array, so after the last point
  the accumulators hold the sums over all 256 samples.
-/
import proofs.«102884_j59210419143319_1_alg».proof.Proof.KBody

noncomputable section

open Idealize.ShloMosaic Idealize.ShloMosaic.TcCoe Idealize.SL.Sem Idealize.ShloMosaic.ValueIdx Cert.MaskedCE
open Idealize.ShloMosaic.Pipeline (Dat)

namespace Cert.KernelIdeal.RunValue

open Cert.KernelIdeal Cert.KernelIdeal.Gen Cert.KernelIdeal.Body

variable (m : (ℓ : Loc nD τ sig) → Buf (Elt Ideal) ℓ)

/-- The two blocks grid point `t` is handed. -/
abbrev blk0 (c : Dev nD) (t : Fin cfg0.N) : Vec Ideal S8x33x64x64 .f32 := iblk m c 0 t
abbrev blk1 (c : Dev nD) (t : Fin cfg0.N) : Vec Ideal S8x33x64x64 .f32 := iblk m c 1 t

/-- The totals of blocks `0 … n`, added up in that order. -/
def runLoss (c : Dev nD) : (n : ℕ) → n < cfg0.N → EReal
  | 0, h => blockLoss (blk0 m c ⟨0, h⟩) (blk1 m c ⟨0, h⟩)
  | n + 1, h => runLoss c n (Nat.lt_of_succ_lt h) + blockLoss (blk0 m c ⟨n + 1, h⟩) (blk1 m c ⟨n + 1, h⟩)
def runCnt (c : Dev nD) : (n : ℕ) → n < cfg0.N → EReal
  | 0, h => blockCnt (blk1 m c ⟨0, h⟩)
  | n + 1, h => runCnt c n (Nat.lt_of_succ_lt h) + blockCnt (blk1 m c ⟨n + 1, h⟩)

/-- After point `n` the accumulators hold those running totals: by induction on the point. -/
theorem outsAt_eq (c : Dev nD) : ∀ (n : ℕ) (h : n < cfg0.N),
    (outsAt0 m c n h).1 (ix2 0 0) = runLoss m c n h ∧ (outsAt0 m c n h).2 (ix2 0 0) = runCnt m c n h
  | 0, h => by
    rw [outsAt0_A m c ⟨0, h⟩ rfl]
    dsimp only
    exact ⟨lossA c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) ((hcond0_0 ⟨0, h⟩).mpr rfl) (iblk m c 0 ⟨0, h⟩) (iblk m c 1 ⟨0, h⟩),
      cntA c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) ((hcond0_0 ⟨0, h⟩).mpr rfl) (iblk m c 0 ⟨0, h⟩) (iblk m c 1 ⟨0, h⟩)⟩
  | n + 1, h => by
    have hN : cfg0.N = 32 := N_0
    have hB : ¬(⟨n + 1, h⟩ : Fin cfg0.N).val % 32 = 0 := by dsimp only; omega
    obtain ⟨i1, i2⟩ := outsAt_eq c n (Nat.lt_of_succ_lt h)
    rw [outsAt0_B m c ⟨n + 1, h⟩ hB]
    dsimp only
    refine ⟨(lossB c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => hB ((hcond0_0 ⟨n + 1, h⟩).mp hh))
        (iblk m c 0 ⟨n + 1, h⟩) (iblk m c 1 ⟨n + 1, h⟩) (outsAt0 m c n (Nat.lt_of_succ_lt h)).1 (outsAt0 m c n (Nat.lt_of_succ_lt h)).2).trans ?_,
      (cntB c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => hB ((hcond0_0 ⟨n + 1, h⟩).mp hh))
        (iblk m c 0 ⟨n + 1, h⟩) (iblk m c 1 ⟨n + 1, h⟩) (outsAt0 m c n (Nat.lt_of_succ_lt h)).1 (outsAt0 m c n (Nat.lt_of_succ_lt h)).2).trans ?_⟩
    · rw [i1]; rfl
    · rw [i2]; rfl

/-- The running totals as sums over the points so far. -/
theorem runLoss_eq_sum (c : Dev nD) : ∀ (n : ℕ) (h : n < cfg0.N),
    runLoss m c n h = ∑ t : Fin (n + 1), blockLoss (blk0 m c ⟨t.val, by have := t.isLt; omega⟩) (blk1 m c ⟨t.val, by have := t.isLt; omega⟩)
  | 0, h => by rw [Fin.sum_univ_one]; rfl
  | n + 1, h => by
    rw [Fin.sum_univ_castSucc]
    simp only [Fin.coe_castSucc, Fin.val_last]
    rw [← runLoss_eq_sum c n (Nat.lt_of_succ_lt h)]; rfl
theorem runCnt_eq_sum (c : Dev nD) : ∀ (n : ℕ) (h : n < cfg0.N),
    runCnt m c n h = ∑ t : Fin (n + 1), blockCnt (blk1 m c ⟨t.val, by have := t.isLt; omega⟩)
  | 0, h => by rw [Fin.sum_univ_one]; rfl
  | n + 1, h => by
    rw [Fin.sum_univ_castSucc]
    simp only [Fin.coe_castSucc, Fin.val_last]
    rw [← runCnt_eq_sum c n (Nat.lt_of_succ_lt h)]; rfl

/-- Window `w`'s block at point `t` starts at row `t` of blocks and at the origin of the other axes. -/
theorem index0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem index1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)

/-- Sample `8t + r` of an array. -/
abbrev sampleAt (t : Fin cfg0.N) (r : Fin 8) : Fin 256 := ⟨8 * t.val + r.val, by
  have hN : t.val < 32 := lt_of_lt_of_eq t.isLt (show cfg0.N = 32 from N_0); have := r.isLt; omega⟩

/-- Sample `r` of the block point `t` is handed is sample `8t + r` of the array. -/
theorem rowOf_blk0 (c : Dev nD) (t : Fin cfg0.N) (r : Fin 8) :
    rowOf (n := 8) (blk0 m c t) r = rowOf (n := 256) (m ((c : Thread nD τ).loc main_arg0)) (sampleAt t r) := by
  funext ch h w
  show iblk m c 0 t (ix4 r ch h w) = m ((c : Thread nD τ).loc main_arg0) (ix4 (sampleAt t r) ch h w)
  unfold iblk
  rw [View.read_apply]
  show V m c main_arg0 _ = m (c.tc.loc main_arg0) _
  rw [V_main_arg0]
  congr 1
  funext a
  apply Fin.ext
  obtain ⟨e0, e1, e2, e3⟩ := index0 t
  match a with
  | ⟨0, _⟩ => show win0_0.index t 0 * 8 + 1 * r.val = 8 * t.val + r.val; rw [e0]; omega
  | ⟨1, _⟩ => show win0_0.index t 1 * 33 + 1 * ch.val = ch.val; rw [e1]; omega
  | ⟨2, _⟩ => show win0_0.index t 2 * 64 + 1 * h.val = h.val; rw [e2]; omega
  | ⟨3, _⟩ => show win0_0.index t 3 * 64 + 1 * w.val = w.val; rw [e3]; omega
theorem rowOf_blk1 (c : Dev nD) (t : Fin cfg0.N) (r : Fin 8) :
    rowOf (n := 8) (blk1 m c t) r = rowOf (n := 256) (m ((c : Thread nD τ).loc main_arg1)) (sampleAt t r) := by
  funext ch h w
  show iblk m c 1 t (ix4 r ch h w) = m ((c : Thread nD τ).loc main_arg1) (ix4 (sampleAt t r) ch h w)
  unfold iblk
  rw [View.read_apply]
  show V m c main_arg1 _ = m (c.tc.loc main_arg1) _
  rw [V_main_arg1]
  congr 1
  funext a
  apply Fin.ext
  obtain ⟨e0, e1, e2, e3⟩ := index1 t
  match a with
  | ⟨0, _⟩ => show win0_1.index t 0 * 8 + 1 * r.val = 8 * t.val + r.val; rw [e0]; omega
  | ⟨1, _⟩ => show win0_1.index t 1 * 33 + 1 * ch.val = ch.val; rw [e1]; omega
  | ⟨2, _⟩ => show win0_1.index t 2 * 64 + 1 * h.val = h.val; rw [e2]; omega
  | ⟨3, _⟩ => show win0_1.index t 3 * 64 + 1 * w.val = w.val; rw [e3]; omega

/-- Thirty-two blocks of eight samples are the 256 samples, in order. -/
theorem sum_blocks (f : Fin 256 → EReal) :
    ∑ t : Fin 32, ∑ r : Fin 8, f ⟨8 * t.val + r.val, by have := t.isLt; have := r.isLt; omega⟩ = ∑ b : Fin 256, f b := by
  rw [← Fintype.sum_prod_type']
  refine Fintype.sum_equiv (finProdFinEquiv (m := 32) (n := 8)) _ _ fun x => ?_
  congr 1
  apply Fin.ext
  show 8 * x.1.val + x.2.val = (finProdFinEquiv (m := 32) (n := 8) x).val
  rw [finProdFinEquiv_apply_val]
  omega

/-- The last grid point. -/
theorem last_lt : 31 < cfg0.N := by rw [show cfg0.N = 32 from N_0]; decide

/-- After the last point the first accumulator holds the summed loss of all 256 samples, -/
theorem lossAt_last (c : Dev nD) :
    (outsAt0 m c 31 last_lt).1 (ix2 0 0)
      = lossOver (n := 256) (m ((c : Thread nD τ).loc main_arg0)) (m ((c : Thread nD τ).loc main_arg1)) := by
  rw [(outsAt_eq m c 31 last_lt).1, runLoss_eq_sum]
  unfold lossOver
  rw [← sum_blocks]
  refine Finset.sum_congr rfl fun t _ => ?_
  unfold blockLoss
  refine Finset.sum_congr rfl fun r _ => ?_
  rw [rowOf_blk0, rowOf_blk1]

/-- and the second their summed count. -/
theorem cntAt_last (c : Dev nD) :
    (outsAt0 m c 31 last_lt).2 (ix2 0 0) = cntOver (n := 256) (m ((c : Thread nD τ).loc main_arg1)) := by
  rw [(outsAt_eq m c 31 last_lt).2, runCnt_eq_sum]
  unfold cntOver
  rw [← sum_blocks]
  refine Finset.sum_congr rfl fun t _ => ?_
  unfold blockCnt
  refine Finset.sum_congr rfl fun r _ => ?_
  rw [rowOf_blk1]

end Cert.KernelIdeal.RunValue

end
-- ==== Proof.KRun.lean ====
/-
  The kernel's run, read as a value.

  Both accumulators are [1,1] arrays whose one block never moves; it is written back once, after the last grid point, so
  each array ends holding what its staging buffer held then: the summed loss, and the summed count, of all 256 samples.
  After the region the host reads each array as a scalar and divides: the program's result is the summed loss over the
  summed count.
-/
import proofs.«102884_j59210419143319_1_alg».proof.Proof.KAcc
import Idealize.ShloMosaic.Lib.StableHlo.Run

noncomputable section

open Idealize.ShloMosaic Idealize.ShloMosaic.TcCoe Idealize.SL.Sem Idealize.ShloMosaic.ValueIdx Cert.MaskedCE
open Idealize.ShloMosaic.Pipeline (Dat)

namespace Cert.KernelIdeal.RunValue

open Cert.KernelIdeal Cert.KernelIdeal.Gen Cert.KernelIdeal.Body

variable (m : (ℓ : Loc nD τ sig) → Buf (Elt Ideal) ℓ) (ρ : Dev nD → PrngReg)

/-- The last grid point, the only one after which the accumulators are written back. -/
abbrev tLast : Fin cfg0.N := ⟨31, last_lt⟩

/-- What the two result arrays end holding: the accumulators after the last point. -/
abbrev res2 (c : Dev nD) : Buf (Elt Ideal) ((c : Thread nD τ).loc main_v0_0) := (outsAt0 m c 31 last_lt).1
abbrev res3 (c : Dev nD) : Buf (Elt Ideal) ((c : Thread nD τ).loc main_v0_1) := (outsAt0 m c 31 last_lt).2

theorem flush_last (t : Fin cfg0.N) (hf : t.val % 32 = 31) : t = tLast := by
  have hN : t.val < 32 := lt_of_lt_of_eq t.isLt (show cfg0.N = 32 from N_0)
  exact Fin.ext (by show t.val = 31; omega)

/-- The one write-back of the loss array writes the accumulator's contents: block (0, 0) of a [1,1] array is the array. -/
theorem flushed2_eq (c : Dev nD) (t : Fin cfg0.N) (hf : (cfg0.win 2).flush t = true) :
    (dats m 0 c).flushed 2 t = ((cfg0.win 2).blk t).view.read (Elt Ideal) (res2 m c) := by
  obtain rfl : t = tLast := flush_last t ((flush0_2 t).mp hf)
  show (cfg0.win 2).cut (grid0.coords tLast) ((dats m 0 c).after 2 tLast) = _
  rw [after0_2]
  have hz' : (fun a => win0_2.index tLast a * main_v0_0.ty.shape.size a) = fun _ => 0 := funext fun a => by fin_cases a <;> decide
  exact (Memref.read_access_unit_zero (Elt Ideal) main_v0_0 hz' (fun a => by rw [congrFun hz' a]; simp) (res2 m c)).symm
theorem flushed3_eq (c : Dev nD) (t : Fin cfg0.N) (hf : (cfg0.win 3).flush t = true) :
    (dats m 0 c).flushed 3 t = ((cfg0.win 3).blk t).view.read (Elt Ideal) (res3 m c) := by
  obtain rfl : t = tLast := flush_last t ((flush0_3 t).mp hf)
  show (cfg0.win 3).cut (grid0.coords tLast) ((dats m 0 c).after 3 tLast) = _
  rw [after0_3]
  have hz' : (fun a => win0_3.index tLast a * main_v0_1.ty.shape.size a) = fun _ => 0 := funext fun a => by fin_cases a <;> decide
  exact (Memref.read_access_unit_zero (Elt Ideal) main_v0_1 hz' (fun a => by rw [congrFun hz' a]; simp) (res3 m c)).symm

/-- So each result array ends holding its accumulator (the last point's block covers it). -/
theorem final2 (c : Dev nD) : (dats m 0 c).arrAt 2 cfg0.N = res2 m c :=
  (dats m 0 c).arrAt_eq_of_cover 2 (res2 m c) (flushed2_eq m c) fun i =>
    ⟨tLast, (flush0_2 tLast).mpr rfl, by
      show i ∈ ((View.whole main_v0_0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩
theorem final3 (c : Dev nD) : (dats m 0 c).arrAt 3 cfg0.N = res3 m c :=
  (dats m 0 c).arrAt_eq_of_cover 3 (res3 m c) (flushed3_eq m c) fun i =>
    ⟨tLast, (flush0_3 tLast).mpr rfl, by
      show i ∈ ((View.whole main_v0_1).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- A [1,1] array has one index. -/
theorem idx11_eq (j k : S1x1.Idx) : j = k := by
  funext a
  apply Fin.ext
  match a with
  | ⟨0, _⟩ => exact (Nat.lt_one_iff.mp (j 0).isLt).trans (Nat.lt_one_iff.mp (k 0).isLt).symm
  | ⟨1, _⟩ => exact (Nat.lt_one_iff.mp (j 1).isLt).trans (Nat.lt_one_iff.mp (k 1).isLt).symm

/-- A [1,1] array read as a scalar is its one entry. -/
theorem scalar_of_11 (X : S1x1.Idx → EReal) (hh : S1x1.ShapeCasts S_) (j : S_.Idx) : shapeCast S_ X hh j = X (ix2 0 0) := by
  unfold shapeCast
  exact congrArg X (idx11_eq _ _)

/-- The host's three lines after the region: each array read as a scalar, then the quotient. -/
theorem tail_eq (c : Dev nD) :
    Pipeline.afterTail₀ cfgs (dats m) 0 (V0 m) [hostOps1] c main_v3
      = fun _ => Ideal.div ((dats m 0 c).arrAt 2 cfg0.N (ix2 0 0)) ((dats m 0 c).arrAt 3 cfg0.N (ix2 0 0)) := by
  unfold Pipeline.afterTail₀
  show StableHlo.after hostOps1 _ (Proc.devRef .tc main_v3) = _
  after_results
  have w2 := Pipeline.withArrays_arr spec0 launch0.win.arr_inj c (V0 m c) (fun w => (dats m 0 c).arrAt w cfg0.N) 2
  have w3 := Pipeline.withArrays_arr spec0 launch0.win.arr_inj c (V0 m c) (fun w => (dats m 0 c).arrAt w cfg0.N) 3
  funext i
  show Ideal.div (shapeCast S_ (Pipeline.withArrays spec0 c (V0 m c) (fun w => (dats m 0 c).arrAt w cfg0.N) (Proc.devRef .tc main_v0_0)) shapeCasts_S1x1_S_ i)
      (shapeCast S_ (Pipeline.withArrays spec0 c (V0 m c) (fun w => (dats m 0 c).arrAt w cfg0.N) (Proc.devRef .tc main_v0_1)) shapeCasts_S1x1_S_ i) = _
  rw [scalar_of_11, scalar_of_11]
  exact congrArg₂ Ideal.div (congrFun w2 _) (congrFun w3 _)

/-- The quotient of what the two arrays end holding is the specification's result of the two argument arrays. -/
theorem value_eq (c : Dev nD) :
    (fun _ : S_.Idx => Ideal.div ((dats m 0 c).arrAt 2 cfg0.N (ix2 0 0)) ((dats m 0 c).arrAt 3 cfg0.N (ix2 0 0)))
      = fun _ => result (m ((c : Thread nD τ).loc main_arg0)) (m ((c : Thread nD τ).loc main_arg1)) := by
  rw [final2, final3]
  show (fun _ : S_.Idx => Ideal.div ((outsAt0 m c 31 last_lt).1 (ix2 0 0)) ((outsAt0 m c 31 last_lt).2 (ix2 0 0))) = _
  rw [lossAt_last, cntAt_last]
  rfl

/-- The result buffer is none of the pipeline's arrays. -/
theorem v3_rest : main_v3 ∈ Pipeline.restRefs sig (cfgs 0).spec :=
  Pipeline.mem_restRefs_of main_v3 rfl (fun w => by fin_cases w <;> decide)

/-- The kernel's run, read: every weakly fair execution terminates with the result at the specification's value of the
    two argument arrays, and the arguments unchanged. -/
theorem run : θ_run defs (onTc (τ := τ) (main (F := Ideal))) ⟨m, fun _ => 0, ρ⟩ fun r => ∀ c : Dev nD,
      r.2.mem ((c.tc : Thread nD τ).loc main_v3)
        = (fun _ => result (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v3 v3_rest).trans ((tail_eq m c).trans (value_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue

end
-- ==== Proof.RefSpec.lean ====
/-
  The same result as the reference arranges it. A sample's 32 × 64 × 64 main entries are laid out flat, entry `j` being
  channel `j / 4096`, row `(j / 64) % 64`, column `j % 64`, with one more entry behind them that holds the pooled mean and
  always takes part: 131073 entries. Labels and predictions are first multiplied by their mask; the logits are the
  predictions where the entry takes part and the fill elsewhere; the largest logit, the sum of the exponentials and the
  cross entropy `Σ label · (logit − lse)` are each ONE maximum or sum over the 131073 entries, the total is negated at the
  end, and the numbers of nonzero entries are counted in 32-bit integers and converted.
-/
import proofs.«102884_j59210419143319_1_alg».proof.Proof.Spec

noncomputable section

open Classical

namespace Cert.MaskedCE.Ref

open Idealize.ShloMosaic Idealize.ShloMosaic.ValueIdx Cert.MaskedCE

/-- The channel, row and column of the main entry with flat number `j`. -/
def chan (j : Fin 131072) : Fin 32 := ⟨j.val / 4096, by have := j.isLt; omega⟩
def hrow (j : Fin 131072) : Fin 64 := ⟨j.val / 64 % 64, by omega⟩
def wcol (j : Fin 131072) : Fin 64 := ⟨j.val % 64, by omega⟩

/-- A function of the main entries, by their flat number. -/
def flat {α : Type} (f : Fin 32 → Fin 64 → Fin 64 → α) (j : Fin 131072) : α := f (chan j) (hrow j) (wcol j)

/-- The flat main entries with one more entry `a` behind them. -/
def withLast {α : Type} (f : Fin 131072 → α) (a : α) (j : Fin 131073) : α := if h : j.val < 131072 then f ⟨j.val, h⟩ else a

/-- The number of nonzero entries of a 64 × 64 plane, as the 32-bit integer it is counted in. -/
def countWord (f : Fin 64 → Fin 64 → EReal) : BitVec 32 :=
  BitVec.ofNat 32 (Finset.univ.filter fun i : Fin 64 × Fin 64 => f i.1 i.2 ≠ 0).card

/-- The mean of the nonzero entries from their sum and their 32-bit number: `s / max(n, 1)` where `n ≠ 0`, else `0`,
    the maximum taken on the signed integers and converted. -/
def meanW (s : EReal) (n : BitVec 32) : EReal :=
  if n ≠ 0#32 then Ideal.div s (FloatOps.sitofp (F := Ideal) .f32 (IntOp.maxsi n 1#32)) else 0

/-- The pooled means with their counts taken in integers. -/
def lmeanW (l : Row) : EReal := meanW (sum2 (lpool l)) (countWord (lpool l))
def pmeanW (p l : Row) : EReal := meanW (sum2 (ppool p l)) (countWord (ppool p l))

/-- Which of the 131073 entries take part: a main entry where its label is not `0`; the last one always. -/
def takes (l : Row) : Fin 131073 → Prop := withLast (flat fun c h w => lab l c h w ≠ 0) True

/-- The masked predictions and labels of the 131073 entries, the pooled means last. -/
def predF (p l : Row) : Fin 131073 → EReal := withLast (flat fun c h w => prd p c h w * nz (lab l c h w)) (pmeanW p l)
def labF (l : Row) : Fin 131073 → EReal := withLast (flat fun c h w => lab l c h w * nz (lab l c h w)) (lmeanW l)

/-- The logits: the masked prediction where the entry takes part, else the fill. -/
def logitF (p l : Row) (j : Fin 131073) : EReal := if takes l j then predF p l j else fill

/-- The largest logit, the sum of the exponentials, their log-sum. -/
def topR (p l : Row) : EReal := Finset.univ.sup (logitF p l)
def expSumR (p l : Row) : EReal := ∑ j : Fin 131073, if takes l j then Ideal.exp (logitF p l j - topR p l) else 0
def lseR (p l : Row) : EReal := topR p l + Ideal.log (expSumR p l)

/-- One entry's share of the cross entropy. -/
def termR (p l : Row) (j : Fin 131073) : EReal := if takes l j then labF l j * (logitF p l j - lseR p l) else 0

/-- The cross entropy of all 256 samples before the sign, and the number of entries that take part as a 32-bit integer. -/
def lossR (P L : (⟨4, ![256, 33, 64, 64]⟩ : Shape).Idx → EReal) : EReal :=
  ∑ b : Fin 256, ∑ j : Fin 131073, termR (rowOf P b) (rowOf L b) j
def cntWord (L : (⟨4, ![256, 33, 64, 64]⟩ : Shape).Idx → EReal) : BitVec 32 :=
  BitVec.ofNat 32 (Finset.univ.filter fun i : Fin 256 × Fin 131073 => takes (rowOf L i.1) i.2).card

/-- The result as the reference arranges it. -/
def resultR (P L : (⟨4, ![256, 33, 64, 64]⟩ : Shape).Idx → EReal) : EReal :=
  Ideal.div (-(lossR P L)) (FloatOps.sitofp (F := Ideal) .f32 (cntWord L))

end Cert.MaskedCE.Ref

end
-- ==== Proof.RefMeans.lean ====
import proofs.«102884_j59210419143319_1_alg».proof.Proof.RefSpec
import proofs.«102884_j59210419143319_1_alg».proof.Proof.RefRead
import Idealize.ShloMosaic.Lib.ValueIdx
import Idealize.ShloMosaic.Lib.ValueLayout
import Idealize.ShloMosaic.Lib.Pipeline.Value
import Idealize.ShloMosaic.PureOps.Ideal.Laws

noncomputable section

open Classical
open Idealize.ShloMosaic Idealize.ShloMosaic.ValueIdx Cert.MaskedCE Cert.MaskedCE.Ref

namespace Cert.ReferenceIdeal.RefValue

open Cert.ReferenceIdeal Cert.ReferenceIdeal.ReadP

/-! ### Words and masks -/

/-- The bit of `x ≠ 0`, converted to a float, is the mask `nz x`. -/
theorem uitofp_une_zero (x : EReal) :
    FloatOps.uitofp (F := Ideal) .f32 (FloatOps.cmpf (F := Ideal) (φ := .f32) .une x
      (FloatOps.ofBits (F := Ideal) .f32 0x00000000#32)) = nz x := by
  show (((Ideal.cmp .une x (Ideal.ofBits .f32 0x00000000#32)).toNat : ℝ) : EReal) = nz x
  rw [Ideal.ofBits_zero_f32]
  unfold Ideal.cmp nz
  by_cases h : x = 0
  · simp [h]
  · simp [h]

/-- The bit of `x ≠ 0`, widened to 32 bits, is the word `1` or `0`. -/
theorem setWidth_une_zero (x : EReal) :
    (FloatOps.cmpf (F := Ideal) (φ := .f32) .une x (FloatOps.ofBits (F := Ideal) .f32 0x00000000#32)).setWidth 32
      = if x ≠ 0 then 1#32 else 0#32 := by
  show (Ideal.cmp .une x (Ideal.ofBits .f32 0x00000000#32)).setWidth 32 = _
  rw [Ideal.ofBits_zero_f32]
  unfold Ideal.cmp
  by_cases h : x = 0
  · simp [h]
  · simp [h]

/-- Adding up words that are each `1` or `0` counts the ones. -/
theorem fold_addi_ite {ι : Type} (s : Finset ι) (p : ι → Prop) [DecidablePred p] :
    s.fold IntOp.addi 0#32 (fun i => if p i then 1#32 else 0#32) = BitVec.ofNat 32 (s.filter p).card := by
  induction s using Finset.cons_induction with
  | empty => rfl
  | cons a s ha ih =>
    rw [Finset.fold_cons, ih, Finset.filter_cons]
    by_cases hp : p a
    · rw [if_pos hp, if_pos hp, Finset.card_cons]
      show 1#32 + BitVec.ofNat 32 (s.filter p).card = BitVec.ofNat 32 ((s.filter p).card + 1)
      rw [Nat.add_comm, BitVec.ofNat_add]
    · rw [if_neg hp, if_neg hp]
      show 0#32 + BitVec.ofNat 32 (s.filter p).card = BitVec.ofNat 32 (s.filter p).card
      rw [BitVec.zero_add]

/-! ### The entries of one sample's plane among the indices of the stack of planes -/

/-- Entry `(h, w)` of sample `b`'s plane. -/
def planeEmb (b : Fin 256) : Fin 64 × Fin 64 ↪ S256x64x64.Idx :=
  ⟨fun q => ix3 b q.1 q.2, fun q q' h => by
    have h1 : q.1 = q'.1 := congrFun h 1
    have h2 : q.2 = q'.2 := congrFun h 2
    exact Prod.ext h1 h2⟩

/-- Dropping the two plane axes of `(b, h, w)` leaves `(b)`; -/
theorem drop_ix3 (b : Fin 256) (h w : Fin 64) :
    Gen.reducesTo_S256x64x64_S256_d1_2.drop (ix3 b h w) = ix1 b := by
  funext a
  match a with
  | ⟨0, _⟩ => rfl

/-- an index that drops to `(b)` is `(b, h, w)` for its own two plane coordinates; -/
theorem eq_ix3_of_drop (i : S256x64x64.Idx) (b : Fin 256)
    (h : Gen.reducesTo_S256x64x64_S256_d1_2.drop i = ix1 b) : i = ix3 b (i 1) (i 2) := by
  have h0 : i 0 = b := congrFun h 0
  rw [← h0]
  exact eq_ix3 i

/-- so the indices a reduction over the plane gathers at `(b)` are the 64 × 64 entries of sample `b`. -/
theorem filter_drop (b : Fin 256) :
    Finset.univ.filter (fun i : S256x64x64.Idx => Gen.reducesTo_S256x64x64_S256_d1_2.drop i = ix1 b)
      = Finset.univ.map (planeEmb b) := by
  ext i
  simp only [Finset.mem_filter, Finset.mem_univ, true_and, Finset.mem_map, planeEmb, Function.Embedding.coeFn_mk]
  exact ⟨fun h => ⟨(i 1, i 2), (eq_ix3_of_drop i b h).symm⟩, fun ⟨q, hq⟩ => hq ▸ drop_ix3 b q.1 q.2⟩

/-- The float sum over a plane, from `0`: rows then columns. -/
theorem reduceAdd_plane (y : S256x64x64.Idx → EReal) (init : S_.Idx → EReal) (hinit : ∀ i, init i = 0) (b : Fin 256) :
    Host.reduceAdd (F := Ideal) (φ := .f32) y init Gen.reducesTo_S256x64x64_S256_d1_2 Gen.h_S_ (ix1 b)
      = sum2 fun h w => y (ix3 b h w) := by
  show Ideal.hostReduceAdd Gen.reducesTo_S256x64x64_S256_d1_2 y (init (Shape.Idx.first Gen.h_S_)) (ix1 b) = _
  unfold Ideal.hostReduceAdd
  rw [filter_drop, Finset.sum_map, hinit, zero_add, Fintype.sum_prod_type]
  rfl

/-- The integer count over a plane, from `0`, of words that are `1` where the entry is not `0`. -/
theorem reduceCount_plane (y : S256x64x64.Idx → EReal) (wd : S256x64x64.Idx → BitVec 32)
    (hwd : ∀ i, wd i = if y i ≠ 0 then 1#32 else 0#32)
    (init : S_.Idx → BitVec 32) (hinit : ∀ i, init i = 0#32) (b : Fin 256) :
    Host.reduce IntOp.addi wd init Gen.reducesTo_S256x64x64_S256_d1_2 Gen.h_S_ (ix1 b)
      = countWord fun h w => y (ix3 b h w) := by
  rw [Host.reduce_eq_fold, filter_drop, Finset.fold_map, hinit]
  have hf : (wd ∘ (planeEmb b)) = fun q : Fin 64 × Fin 64 => if y (ix3 b q.1 q.2) ≠ 0 then 1#32 else 0#32 :=
    funext fun q => hwd _
  rw [hf, fold_addi_ite]
  rfl

/-! ### The pooled channel, its mask and the masked products, read at an entry -/

/-- Channel 32 sliced out and its unit axis dropped: entry `(b, h, w)` is the pooled channel's, for the labels -/
theorem pooled_idx_lab (b : Fin 256) (h w : Fin 64) :
    idx_main_v4 (idx_main_v5 (ix3 b h w)) = ix4 b pooled h w := by
  have hb := b.isLt; have hh := h.isLt; have hw := w.isLt
  funext a
  match a with
  | ⟨0, _⟩ => apply Fin.ext; show ((b.val * 64 + h.val) * 64 + w.val) / 4096 = b.val; omega
  | ⟨1, _⟩ => rfl
  | ⟨2, _⟩ => apply Fin.ext; show ((b.val * 64 + h.val) * 64 + w.val) / 64 % 64 = h.val; omega
  | ⟨3, _⟩ => apply Fin.ext; show ((b.val * 64 + h.val) * 64 + w.val) % 64 = w.val; omega

/-- and for the predictions. -/
theorem pooled_idx_prd (b : Fin 256) (h w : Fin 64) :
    idx_main_v1 (idx_main_v2 (ix3 b h w)) = ix4 b pooled h w := by
  have hb := b.isLt; have hh := h.isLt; have hw := w.isLt
  funext a
  match a with
  | ⟨0, _⟩ => apply Fin.ext; show ((b.val * 64 + h.val) * 64 + w.val) / 4096 = b.val; omega
  | ⟨1, _⟩ => rfl
  | ⟨2, _⟩ => apply Fin.ext; show ((b.val * 64 + h.val) * 64 + w.val) / 64 % 64 = h.val; omega
  | ⟨3, _⟩ => apply Fin.ext; show ((b.val * 64 + h.val) * 64 + w.val) % 64 = w.val; omega

/-- The pooled label of sample `b` (the reference's %5). -/
theorem v5_at (x1 : (⟨S256x33x64x64, .f32⟩ : BufTy).Contents (Elt Ideal)) (b : Fin 256) (h w : Fin 64) :
    val_main_v5 (F := Ideal) x1 (ix3 b h w) = rowOf (n := 256) x1 b pooled h w := by
  rw [val_main_v5_apply, val_main_v4_apply, pooled_idx_lab]
  rfl

/-- The pooled prediction of sample `b` (the reference's %2). -/
theorem v2_at (x0 : (⟨S256x33x64x64, .f32⟩ : BufTy).Contents (Elt Ideal)) (b : Fin 256) (h w : Fin 64) :
    val_main_v2 (F := Ideal) x0 (ix3 b h w) = rowOf (n := 256) x0 b pooled h w := by
  rw [val_main_v2_apply, val_main_v1_apply, pooled_idx_prd]
  rfl

/-- The zero every pooled label is compared with (the reference's %6). -/
theorem v6_at (i : S256x64x64.Idx) : val_main_v6 (F := Ideal) i = FloatOps.ofBits (F := Ideal) .f32 0x00000000#32 := by
  rw [val_main_v6_apply, val_main_cst_apply]

/-- The pooled label's support as a number (the reference's %8 and %10, the same conversion of the bits %7). -/
theorem v8_at (x1 : (⟨S256x33x64x64, .f32⟩ : BufTy).Contents (Elt Ideal)) (b : Fin 256) (h w : Fin 64) :
    val_main_v8 (F := Ideal) x1 (ix3 b h w) = nz (rowOf (n := 256) x1 b pooled h w) := by
  rw [val_main_v8_apply, val_main_v7_apply, v5_at, v6_at, uitofp_une_zero]

theorem v10_at (x1 : (⟨S256x33x64x64, .f32⟩ : BufTy).Contents (Elt Ideal)) (b : Fin 256) (h w : Fin 64) :
    val_main_v10 (F := Ideal) x1 (ix3 b h w) = nz (rowOf (n := 256) x1 b pooled h w) := by
  rw [val_main_v10_apply, val_main_v7_apply, v5_at, v6_at, uitofp_une_zero]

/-- The masked pooled label (the reference's %9). -/
theorem v9_at (x1 : (⟨S256x33x64x64, .f32⟩ : BufTy).Contents (Elt Ideal)) (b : Fin 256) (h w : Fin 64) :
    val_main_v9 (F := Ideal) x1 (ix3 b h w) = lpool (rowOf (n := 256) x1 b) h w := by
  rw [val_main_v9_apply, v5_at, v8_at]
  rfl

/-- The masked pooled prediction (the reference's %11). -/
theorem v11_at (x0 x1 : (⟨S256x33x64x64, .f32⟩ : BufTy).Contents (Elt Ideal)) (b : Fin 256) (h w : Fin 64) :
    val_main_v11 (F := Ideal) x0 x1 (ix3 b h w) = ppool (rowOf (n := 256) x0 b) (rowOf (n := 256) x1 b) h w := by
  rw [val_main_v11_apply, v2_at, v10_at]
  rfl

/-! ### The counts and the sums -/

/-- The word counted for an entry of the masked label: `1` where it is not `0`. -/
theorem call0_word (x1 : (⟨S256x33x64x64, .f32⟩ : BufTy).Contents (Elt Ideal)) (i : S256x64x64.Idx) :
    val_main_call0_v2 (F := Ideal) x1 i = if val_main_v9 (F := Ideal) x1 i ≠ 0 then 1#32 else 0#32 := by
  rw [val_main_call0_v2_apply, val_main_call0_v1_apply, val_main_call0_v0_apply, val_main_call0_cst_apply,
    setWidth_une_zero]

/-- The word counted for an entry of the masked prediction. -/
theorem call1_word (x0 x1 : (⟨S256x33x64x64, .f32⟩ : BufTy).Contents (Elt Ideal)) (i : S256x64x64.Idx) :
    val_main_call1_v2 (F := Ideal) x0 x1 i = if val_main_v11 (F := Ideal) x0 x1 i ≠ 0 then 1#32 else 0#32 := by
  rw [val_main_call1_v2_apply, val_main_call1_v1_apply, val_main_call1_v0_apply, val_main_call1_cst_apply,
    setWidth_une_zero]

/-- The number of nonzero entries of the masked pooled label (the reference's %12). -/
theorem v12_at (x1 : (⟨S256x33x64x64, .f32⟩ : BufTy).Contents (Elt Ideal)) (b : Fin 256) :
    val_main_v12 (F := Ideal) x1 (ix1 b) = countWord (lpool (rowOf (n := 256) x1 b)) := by
  unfold val_main_v12
  rw [reduceCount_plane (val_main_v9 (F := Ideal) x1) _ (call0_word x1) _ (fun i => val_main_call0_c_apply i) b]
  exact congrArg countWord (funext fun h => funext fun w => v9_at x1 b h w)

/-- The sum of the masked pooled label (the reference's %13). -/
theorem v13_at (x1 : (⟨S256x33x64x64, .f32⟩ : BufTy).Contents (Elt Ideal)) (b : Fin 256) :
    val_main_v13 (F := Ideal) x1 (ix1 b) = sum2 (lpool (rowOf (n := 256) x1 b)) := by
  unfold val_main_v13
  rw [reduceAdd_plane (val_main_v9 (F := Ideal) x1) _
    (fun i => (val_main_cst_0_apply i).trans Ideal.ofBits_zero_f32) b]
  exact congrArg sum2 (funext fun h => funext fun w => v9_at x1 b h w)

/-- The number of nonzero entries of the masked pooled prediction (the reference's %14). -/
theorem v14_at (x0 x1 : (⟨S256x33x64x64, .f32⟩ : BufTy).Contents (Elt Ideal)) (b : Fin 256) :
    val_main_v14 (F := Ideal) x0 x1 (ix1 b) = countWord (ppool (rowOf (n := 256) x0 b) (rowOf (n := 256) x1 b)) := by
  unfold val_main_v14
  rw [reduceCount_plane (val_main_v11 (F := Ideal) x0 x1) _ (call1_word x0 x1) _ (fun i => val_main_call1_c_apply i) b]
  exact congrArg countWord (funext fun h => funext fun w => v11_at x0 x1 b h w)

/-- The sum of the masked pooled prediction (the reference's %15). -/
theorem v15_at (x0 x1 : (⟨S256x33x64x64, .f32⟩ : BufTy).Contents (Elt Ideal)) (b : Fin 256) :
    val_main_v15 (F := Ideal) x0 x1 (ix1 b) = sum2 (ppool (rowOf (n := 256) x0 b) (rowOf (n := 256) x1 b)) := by
  unfold val_main_v15
  rw [reduceAdd_plane (val_main_v11 (F := Ideal) x0 x1) _
    (fun i => (val_main_cst_1_apply i).trans Ideal.ofBits_zero_f32) b]
  exact congrArg sum2 (funext fun h => funext fun w => v11_at x0 x1 b h w)

/-! ### The mean of the nonzero entries -/

/-- The sum over `max(n, 1)` selected where `n ≠ 0`, and `0` elsewhere, is the mean `meanW`. -/
theorem where_mean (s : EReal) (n : BitVec 32) :
    Scalar.select (IntOp.cmpi .ne n 0#32)
      (FloatOps.hostDivf (F := Ideal) (φ := .f32) s (FloatOps.sitofp (F := Ideal) .f32 (IntOp.maxsi n 1#32)))
      (FloatOps.ofBits (F := Ideal) .f32 0x00000000#32) = meanW s n := by
  unfold meanW
  by_cases hn : n = 0#32
  · have hbit : IntOp.cmpi .ne n 0#32 = 0#1 := by subst hn; rfl
    rw [hbit, select_zero, if_neg (not_not.mpr hn)]
    exact Ideal.ofBits_zero_f32
  · have hbit : IntOp.cmpi .ne n 0#32 = 1#1 := by
      have hb : (n != 0#32) = true := bne_iff_ne.mpr hn
      show BitVec.ofBool (n != 0#32) = 1#1
      rw [hb]
      rfl
    rw [hbit, select_one, if_pos hn]
    rfl

/-- The reference's pooled label mean of sample `b` (its %22). -/
theorem lmeanW_apply (x1 : (⟨S256x33x64x64, .f32⟩ : BufTy).Contents (Elt Ideal)) (b : Fin 256) :
    val_main_v22 (F := Ideal) x1 (ix1 b) = lmeanW (rowOf x1 b) := by
  rw [val_main_v22_apply, val_main_v17_apply, val_main_v21_apply, val_main_v20_apply, val_main_v19_apply,
    val_main_v16_apply, val_main_c_apply, val_main_v18_apply, val_main_c_2_apply,
    val_main_call2_v1_apply, val_main_call2_v0_apply, val_main_cst_3_apply, v12_at, v13_at, where_mean]
  rfl

/-- The reference's pooled prediction mean of sample `b` (its %29). -/
theorem pmeanW_apply (x0 x1 : (⟨S256x33x64x64, .f32⟩ : BufTy).Contents (Elt Ideal)) (b : Fin 256) :
    val_main_v29 (F := Ideal) x0 x1 (ix1 b) = pmeanW (rowOf x0 b) (rowOf x1 b) := by
  rw [val_main_v29_apply, val_main_v24_apply, val_main_v28_apply, val_main_v27_apply, val_main_v26_apply,
    val_main_v23_apply, val_main_c_4_apply, val_main_v25_apply, val_main_c_5_apply,
    val_main_call3_v1_apply, val_main_call3_v0_apply, val_main_cst_6_apply, v14_at, v15_at, where_mean]
  rfl

end Cert.ReferenceIdeal.RefValue

end
-- ==== Proof.RefValue.lean ====
import proofs.«102884_j59210419143319_1_alg».proof.Proof.RefSpec
import proofs.«102884_j59210419143319_1_alg».proof.Proof.RefRead
import Idealize.ShloMosaic.Lib.ValueIdx
import Idealize.ShloMosaic.Lib.ValueLayout
import Idealize.ShloMosaic.Lib.Pipeline.Value
import Idealize.ShloMosaic.PureOps.Ideal.Laws

noncomputable section

open Classical
open Idealize.ShloMosaic Idealize.ShloMosaic.ValueIdx Cert.MaskedCE Cert.MaskedCE.Ref

namespace Cert.ReferenceIdeal.RefValue

open Cert.ReferenceIdeal Cert.ReferenceIdeal.ReadP

section Steps

open Cert.ReferenceIdeal.Gen

/-! ### Indices -/

/-- The slice of the main channels reads the array at the same sample, row and column, and the channel as one of 33. -/
theorem idx_v0_eq (b : Fin 256) (c : Fin 32) (h w : Fin 64) :
    idx_main_v0 (ix4 b c h w) = ix4 b c.castSucc h w := by
  funext a
  match a with
  | ⟨0, _⟩ => rfl
  | ⟨1, _⟩ => rfl
  | ⟨2, _⟩ => rfl
  | ⟨3, _⟩ => rfl

theorem idx_v3_eq (b : Fin 256) (c : Fin 32) (h w : Fin 64) :
    idx_main_v3 (ix4 b c h w) = ix4 b c.castSucc h w := idx_v0_eq b c h w

/-- The reshape of a sample's main entries to one flat row reads flat entry `j` at its channel, row and column. -/
theorem idx_v36_eq (b : Fin 256) (j : Fin 131072) :
    idx_main_v36 (ix2 b j) = ix4 b (chan j) (hrow j) (wcol j) := by
  have hb := b.isLt
  have hj := j.isLt
  funext a
  match a with
  | ⟨0, _⟩ => exact Fin.ext (by show (b.val * 131072 + j.val) / 131072 = b.val; omega)
  | ⟨1, _⟩ => exact Fin.ext (by show (b.val * 131072 + j.val) / 4096 % 32 = j.val / 4096; omega)
  | ⟨2, _⟩ => exact Fin.ext (by show (b.val * 131072 + j.val) / 64 % 64 = j.val / 64 % 64; omega)
  | ⟨3, _⟩ => exact Fin.ext (by show (b.val * 131072 + j.val) % 64 = j.val % 64; omega)

theorem idx_v39_eq (b : Fin 256) (j : Fin 131072) :
    idx_main_v39 (ix2 b j) = ix4 b (chan j) (hrow j) (wcol j) := idx_v36_eq b j

theorem idx_v42_eq (b : Fin 256) (j : Fin 131072) :
    idx_main_v42 (ix2 b j) = ix4 b (chan j) (hrow j) (wcol j) := idx_v36_eq b j

/-- A column of one entry per sample is read at the sample. -/
theorem idx_v40_eq (b : Fin 256) (z : Fin 1) : idx_main_v40 (ix2 b z) = ix1 b := by
  funext a
  match a with
  | ⟨0, _⟩ => rfl

/-- A row-wise value broadcast along the row is read at the sample's one entry. -/
theorem idx_v48_eq (b : Fin 256) (j : Fin 131073) : idx_main_v48 (ix2 b j) = ix2 b (0 : Fin 1) := by
  funext a
  match a with
  | ⟨0, _⟩ => rfl
  | ⟨1, _⟩ => rfl

theorem idx_v52_eq (b : Fin 256) (k : Fin 131073) : idx_main_v52 (ix1 b) k = ix2 b k := by
  funext a
  match a with
  | ⟨0, _⟩ => rfl
  | ⟨1, _⟩ => rfl

/-! ### A row of 131072 entries with one more behind it -/

/-- In front of the joint the concatenation reads its first piece. -/
theorem concat_left {α : Type} (x₁ : S256x131072.Idx → α) (x₂ : S256x1.Idx → α) (b : Fin 256) (j : Fin 131073)
    (h : j.val < 131072) :
    concatenate S256x131073 1 [⟨S256x131072, x₁⟩, ⟨S256x1, x₂⟩] concatenates_S256x131072_S256x1_S256x131073_d1 (ix2 b j)
      = x₁ (ix2 b ⟨j.val, h⟩) :=
  concatenate_pair_apply_left 1 x₁ x₂ concatenates_S256x131072_S256x1_S256x131073_d1 (ix2 b j) rfl (ix2 b ⟨j.val, h⟩)
    (fun a => match a with
      | ⟨0, _⟩ => rfl
      | ⟨1, _⟩ => rfl)

/-- Behind the joint it reads the one entry of its second piece. -/
theorem concat_right {α : Type} (x₁ : S256x131072.Idx → α) (x₂ : S256x1.Idx → α) (b : Fin 256) (j : Fin 131073)
    (h : ¬ j.val < 131072) :
    concatenate S256x131073 1 [⟨S256x131072, x₁⟩, ⟨S256x1, x₂⟩] concatenates_S256x131072_S256x1_S256x131073_d1 (ix2 b j)
      = x₂ (ix2 b (0 : Fin 1)) :=
  concatenate_pair_apply_right 1 x₁ x₂ concatenates_S256x131072_S256x1_S256x131073_d1 (ix2 b j) rfl rfl (ix2 b (0 : Fin 1))
    (fun a => match a with
      | ⟨0, _⟩ => fun _ => rfl
      | ⟨1, _⟩ => fun hne => absurd rfl hne)
    (by have := j.isLt; show 0 + 131072 = j.val; omega)

/-! ### The comparison bit and the mask -/

/-- "Differs from zero" is the bit 1 where the value is not zero, -/
theorem cmp_une_of_ne {x : EReal} (h : x ≠ 0) : Ideal.cmp .une x 0 = 1#1 := by
  unfold Ideal.cmp; simp [h]

/-- and the bit 0 where it is zero. -/
theorem cmp_une_of_eq {x : EReal} (h : x = 0) : Ideal.cmp .une x 0 = 0#1 := by
  unfold Ideal.cmp; simp [h]

/-- The bit as a number is the mask. -/
theorem uitofp_cmp_une (x : EReal) : FloatOps.uitofp (F := Ideal) .f32 (Ideal.cmp .une x 0) = nz x := by
  show (((Ideal.cmp .une x 0).toNat : ℝ) : EReal) = nz x
  unfold nz
  by_cases h : x ≠ 0
  · rw [cmp_une_of_ne h, if_pos h]; simp
  · rw [cmp_une_of_eq (not_not.mp h), if_neg h]; simp

/-! ### The main channels, entry by entry -/

variable (x0 x1 : (⟨S256x33x64x64, .f32⟩ : BufTy).Contents (Elt Ideal))

/-- %31: the bit "the label is not zero". -/
theorem v31_eq (b : Fin 256) (c : Fin 32) (h w : Fin 64) :
    val_main_v31 (F := Ideal) x1 (ix4 b c h w) = Ideal.cmp .une (lab (rowOf x1 b) c h w) 0 := by
  rw [val_main_v31_apply, val_main_v3_apply, idx_v3_eq, val_main_v30_apply, val_main_cst_7_apply]
  show Ideal.cmp .une (x1 (ix4 b c.castSucc h w)) (Ideal.ofBits .f32 0x00000000#32) = _
  rw [Ideal.ofBits_zero_f32]
  rfl

/-- %32, %34: the label's mask. -/
theorem v32_eq (b : Fin 256) (c : Fin 32) (h w : Fin 64) :
    val_main_v32 (F := Ideal) x1 (ix4 b c h w) = nz (lab (rowOf x1 b) c h w) := by
  rw [val_main_v32_apply, v31_eq]; exact uitofp_cmp_une _

theorem v34_eq (b : Fin 256) (c : Fin 32) (h w : Fin 64) :
    val_main_v34 (F := Ideal) x1 (ix4 b c h w) = nz (lab (rowOf x1 b) c h w) := by
  rw [val_main_v34_apply, v31_eq]; exact uitofp_cmp_une _

/-- %33: the masked label. -/
theorem v33_eq (b : Fin 256) (c : Fin 32) (h w : Fin 64) :
    val_main_v33 (F := Ideal) x1 (ix4 b c h w) = lab (rowOf x1 b) c h w * nz (lab (rowOf x1 b) c h w) := by
  rw [val_main_v33_apply, val_main_v3_apply, idx_v3_eq, v32_eq]; rfl

/-- %35: the masked prediction. -/
theorem v35_eq (b : Fin 256) (c : Fin 32) (h w : Fin 64) :
    val_main_v35 (F := Ideal) x0 x1 (ix4 b c h w) = prd (rowOf x0 b) c h w * nz (lab (rowOf x1 b) c h w) := by
  rw [val_main_v35_apply, val_main_v0_apply, idx_v0_eq, v34_eq]; rfl

/-- %36, %39, %42: the same three, by flat entry. -/
theorem v36_eq (b : Fin 256) (j : Fin 131072) :
    val_main_v36 (F := Ideal) x1 (ix2 b j) = Ideal.cmp .une (flat (lab (rowOf x1 b)) j) 0 := by
  rw [val_main_v36_apply, idx_v36_eq, v31_eq]; rfl

theorem v39_eq (b : Fin 256) (j : Fin 131072) :
    val_main_v39 (F := Ideal) x0 x1 (ix2 b j)
      = flat (fun c h w => prd (rowOf x0 b) c h w * nz (lab (rowOf x1 b) c h w)) j := by
  rw [val_main_v39_apply, idx_v39_eq, v35_eq]; rfl

theorem v42_eq (b : Fin 256) (j : Fin 131072) :
    val_main_v42 (F := Ideal) x1 (ix2 b j)
      = flat (fun c h w => lab (rowOf x1 b) c h w * nz (lab (rowOf x1 b) c h w)) j := by
  rw [val_main_v42_apply, idx_v42_eq, v33_eq]; rfl

/-! ### The 131073 entries of a sample -/

/-- %38 in front of the last entry: the bit of the flat label. -/
theorem v38_lt (b : Fin 256) (j : Fin 131073) (h : j.val < 131072) :
    val_main_v38 (F := Ideal) x1 (ix2 b j) = Ideal.cmp .une (flat (lab (rowOf x1 b)) ⟨j.val, h⟩) 0 := by
  unfold val_main_v38
  rw [concat_left _ _ b j h, v36_eq]

/-- %38 at the last entry: the bit 1. -/
theorem v38_last (b : Fin 256) (j : Fin 131073) (h : ¬ j.val < 131072) :
    val_main_v38 (F := Ideal) x1 (ix2 b j) = 1#1 := by
  unfold val_main_v38
  rw [concat_right _ _ b j h, val_main_v37_apply, val_main_c_8_apply]

/-- %38 is the bit 1 at the entries that take part, -/
theorem v38_of_takes (b : Fin 256) (j : Fin 131073) (ht : takes (rowOf x1 b) j) :
    val_main_v38 (F := Ideal) x1 (ix2 b j) = 1#1 := by
  by_cases h : j.val < 131072
  · rw [v38_lt x1 b j h]
    refine cmp_une_of_ne ?_
    unfold takes withLast at ht
    rw [dif_pos h] at ht
    exact ht
  · exact v38_last x1 b j h

/-- and the bit 0 at the others. -/
theorem v38_of_not_takes (b : Fin 256) (j : Fin 131073) (ht : ¬ takes (rowOf x1 b) j) :
    val_main_v38 (F := Ideal) x1 (ix2 b j) = 0#1 := by
  by_cases h : j.val < 131072
  · rw [v38_lt x1 b j h]
    refine cmp_une_of_eq ?_
    unfold takes withLast at ht
    rw [dif_pos h] at ht
    exact not_not.mp ht
  · exfalso
    apply ht
    unfold takes withLast
    rw [dif_neg h]
    trivial

theorem idx_v43_eq (b : Fin 256) (z : Fin 1) : idx_main_v43 (ix2 b z) = ix1 b := idx_v40_eq b z

theorem idx_v47_eq (b : Fin 256) (z : Fin 1) : idx_main_v47 (ix2 b z) = ix1 b := idx_v40_eq b z

theorem idx_v53_eq (b : Fin 256) (z : Fin 1) : idx_main_v53 (ix2 b z) = ix1 b := idx_v40_eq b z

theorem idx_v56_eq (b : Fin 256) (j : Fin 131073) : idx_main_v56 (ix2 b j) = ix2 b (0 : Fin 1) := idx_v48_eq b j

/-- %41: the masked predictions with the pooled prediction's mean behind them. -/
theorem v41_eq (h29 : ∀ b : Fin 256, val_main_v29 (F := Ideal) x0 x1 (ix1 b) = pmeanW (rowOf x0 b) (rowOf x1 b))
    (b : Fin 256) (j : Fin 131073) :
    val_main_v41 (F := Ideal) x0 x1 (ix2 b j) = predF (rowOf x0 b) (rowOf x1 b) j := by
  unfold val_main_v41 predF withLast
  by_cases h : j.val < 131072
  · rw [concat_left _ _ b j h, dif_pos h, v39_eq]
  · rw [concat_right _ _ b j h, dif_neg h, val_main_v40_apply, idx_v40_eq, h29]

/-- %44: the masked labels with the pooled label's mean behind them. -/
theorem v44_eq (h22 : ∀ b : Fin 256, val_main_v22 (F := Ideal) x1 (ix1 b) = lmeanW (rowOf x1 b))
    (b : Fin 256) (j : Fin 131073) :
    val_main_v44 (F := Ideal) x1 (ix2 b j) = labF (rowOf x1 b) j := by
  unfold val_main_v44 labF withLast
  by_cases h : j.val < 131072
  · rw [concat_left _ _ b j h, dif_pos h, v42_eq]
  · rw [concat_right _ _ b j h, dif_neg h, val_main_v43_apply, idx_v43_eq, h22]

/-- %45: the logits. -/
theorem v45_eq (h29 : ∀ b : Fin 256, val_main_v29 (F := Ideal) x0 x1 (ix1 b) = pmeanW (rowOf x0 b) (rowOf x1 b))
    (b : Fin 256) (j : Fin 131073) :
    val_main_v45 (F := Ideal) x0 x1 (ix2 b j) = logitF (rowOf x0 b) (rowOf x1 b) j := by
  rw [val_main_v45_apply]
  unfold logitF
  by_cases ht : takes (rowOf x1 b) j
  · rw [v38_of_takes x1 b j ht, if_pos ht, select_one, v41_eq x0 x1 h29]
  · rw [v38_of_not_takes x1 b j ht, if_neg ht, select_zero, val_main_call4_v0_apply, val_main_cst_9_apply]
    rfl

/-! ### The largest logit of a sample -/

theorem reduces_d1 : S256x131073.Reduces [1] S256 := by decide

/-- The entries of sample `b` are the indices `(b, k)`. -/
theorem lift_d1 (b : Fin 256) (k : Fin 131073) : reduces_d1.lift (ix1 b) k = ix2 b k := by
  funext c
  apply Fin.ext
  show reduces_d1.liftVal (ix1 b) k.val c = (ix2 b k c).val
  unfold Shape.Reduces.liftVal
  match c with
  | ⟨0, _⟩ => simp
  | ⟨1, _⟩ => simp

/-- The word of −∞ is the least element. -/
theorem ofBits_neg_inf : Ideal.ofBits .f32 0xFF800000#32 = ⊥ := by
  simp [Ideal.ofBits, Ideal.ieee]

/-- %46: the maximum from −∞ over the 131073 logits is their supremum. -/
theorem v46_eq (h29 : ∀ b : Fin 256, val_main_v29 (F := Ideal) x0 x1 (ix1 b) = pmeanW (rowOf x0 b) (rowOf x1 b))
    (b : Fin 256) :
    val_main_v46 (F := Ideal) x0 x1 (ix1 b) = topR (rowOf x0 b) (rowOf x1 b) := by
  unfold val_main_v46
  rw [Host.reduce_eq_fold_single FloatOps.maximumf _ _ reducesTo_S256x131073_S256_d1 reduces_d1 h_S_ (ix1 b),
    val_main_cst_10_apply]
  have e : (val_main_v45 (F := Ideal) x0 x1 ∘ reduces_d1.lift (ix1 b)) = logitF (rowOf x0 b) (rowOf x1 b) :=
    funext fun k => (congrArg (val_main_v45 (F := Ideal) x0 x1) (lift_d1 b k)).trans (v45_eq x0 x1 h29 b k)
  rw [e]
  show Finset.univ.fold _ (Ideal.ofBits .f32 0xFF800000#32) _ = _
  rw [ofBits_neg_inf]
  rfl

/-! ### The sum of the exponentials, its logarithm, and the terms of the cross entropy -/

/-- %47: the largest logit, one entry per sample. -/
theorem v47_eq (h29 : ∀ b : Fin 256, val_main_v29 (F := Ideal) x0 x1 (ix1 b) = pmeanW (rowOf x0 b) (rowOf x1 b))
    (b : Fin 256) (z : Fin 1) :
    val_main_v47 (F := Ideal) x0 x1 (ix2 b z) = topR (rowOf x0 b) (rowOf x1 b) := by
  rw [val_main_v47_apply, idx_v47_eq, v46_eq x0 x1 h29]

/-- %48: the same along the row. -/
theorem v48_eq (h29 : ∀ b : Fin 256, val_main_v29 (F := Ideal) x0 x1 (ix1 b) = pmeanW (rowOf x0 b) (rowOf x1 b))
    (b : Fin 256) (j : Fin 131073) :
    val_main_v48 (F := Ideal) x0 x1 (ix2 b j) = topR (rowOf x0 b) (rowOf x1 b) := by
  rw [val_main_v48_apply, idx_v48_eq, v47_eq x0 x1 h29]

/-- %51: the exponential of the logit less the largest one where the entry takes part, else zero. -/
theorem v51_eq (h29 : ∀ b : Fin 256, val_main_v29 (F := Ideal) x0 x1 (ix1 b) = pmeanW (rowOf x0 b) (rowOf x1 b))
    (b : Fin 256) (j : Fin 131073) :
    val_main_v51 (F := Ideal) x0 x1 (ix2 b j)
      = if takes (rowOf x1 b) j then Ideal.exp (logitF (rowOf x0 b) (rowOf x1 b) j - topR (rowOf x0 b) (rowOf x1 b)) else 0 := by
  rw [val_main_v51_apply]
  by_cases ht : takes (rowOf x1 b) j
  · rw [v38_of_takes x1 b j ht, if_pos ht, select_one, val_main_v50_apply, val_main_v49_apply, v45_eq x0 x1 h29,
      v48_eq x0 x1 h29]
    rfl
  · rw [v38_of_not_takes x1 b j ht, if_neg ht, select_zero, val_main_call5_v1_apply, val_main_call5_v0_apply,
      val_main_cst_11_apply]
    exact Ideal.ofBits_zero_f32

/-- %52: their sum over the sample's entries. -/
theorem v52_eq (h29 : ∀ b : Fin 256, val_main_v29 (F := Ideal) x0 x1 (ix1 b) = pmeanW (rowOf x0 b) (rowOf x1 b))
    (b : Fin 256) :
    val_main_v52 (F := Ideal) x0 x1 (ix1 b) = expSumR (rowOf x0 b) (rowOf x1 b) := by
  rw [val_main_v52_apply, val_main_cst_12_apply]
  show Ideal.ofBits .f32 0x00000000#32 + _ = _
  rw [Ideal.ofBits_zero_f32, zero_add]
  unfold expSumR
  refine Finset.sum_congr rfl fun k _ => ?_
  rw [idx_v52_eq, v51_eq x0 x1 h29]

/-- %55: the largest logit plus the logarithm of the sum. -/
theorem v55_eq (h29 : ∀ b : Fin 256, val_main_v29 (F := Ideal) x0 x1 (ix1 b) = pmeanW (rowOf x0 b) (rowOf x1 b))
    (b : Fin 256) (z : Fin 1) :
    val_main_v55 (F := Ideal) x0 x1 (ix2 b z) = lseR (rowOf x0 b) (rowOf x1 b) := by
  rw [val_main_v55_apply, v47_eq x0 x1 h29, val_main_v54_apply, val_main_v53_apply, idx_v53_eq, v52_eq x0 x1 h29]
  unfold lseR
  rw [Ideal.addf_def, Ideal.hostUnary_log_def]

/-- %57: the logit less that. -/
theorem v57_eq (h29 : ∀ b : Fin 256, val_main_v29 (F := Ideal) x0 x1 (ix1 b) = pmeanW (rowOf x0 b) (rowOf x1 b))
    (b : Fin 256) (j : Fin 131073) :
    val_main_v57 (F := Ideal) x0 x1 (ix2 b j)
      = logitF (rowOf x0 b) (rowOf x1 b) j - lseR (rowOf x0 b) (rowOf x1 b) := by
  rw [val_main_v57_apply, v45_eq x0 x1 h29, val_main_v56_apply, idx_v56_eq, v55_eq x0 x1 h29]
  rfl

/-- %59: one entry's share of the cross entropy. -/
theorem v59_eq (h22 : ∀ b : Fin 256, val_main_v22 (F := Ideal) x1 (ix1 b) = lmeanW (rowOf x1 b))
    (h29 : ∀ b : Fin 256, val_main_v29 (F := Ideal) x0 x1 (ix1 b) = pmeanW (rowOf x0 b) (rowOf x1 b))
    (b : Fin 256) (j : Fin 131073) :
    val_main_v59 (F := Ideal) x0 x1 (ix2 b j) = termR (rowOf x0 b) (rowOf x1 b) j := by
  rw [val_main_v59_apply]
  unfold termR
  by_cases ht : takes (rowOf x1 b) j
  · rw [v38_of_takes x1 b j ht, if_pos ht, select_one, val_main_v58_apply, v44_eq x1 h22, v57_eq x0 x1 h29]
    rfl
  · rw [v38_of_not_takes x1 b j ht, if_neg ht, select_zero, val_main_call6_v1_apply, val_main_call6_v0_apply,
      val_main_cst_13_apply]
    exact Ideal.ofBits_zero_f32

/-! ### The total and the count -/

/-- %60: the sum over all entries of all samples, sample by sample. -/
theorem v60_eq (h22 : ∀ b : Fin 256, val_main_v22 (F := Ideal) x1 (ix1 b) = lmeanW (rowOf x1 b))
    (h29 : ∀ b : Fin 256, val_main_v29 (F := Ideal) x0 x1 (ix1 b) = pmeanW (rowOf x0 b) (rowOf x1 b)) :
    val_main_v60 (F := Ideal) x0 x1 ix0 = lossR x0 x1 := by
  rw [val_main_v60_apply, val_main_cst_14_apply]
  show Ideal.ofBits .f32 0x00000000#32 + _ = _
  rw [Ideal.ofBits_zero_f32, zero_add, sum_idx2]
  unfold lossR
  exact Finset.sum_congr rfl fun b _ => Finset.sum_congr rfl fun j _ => v59_eq x0 x1 h22 h29 b j

/-- A sum of 32-bit words, each the widening of one bit, is the number of bits that are 1. -/
theorem fold_addi_bits {ι : Type} (s : Finset ι) (f : ι → BitVec 1) :
    s.fold IntOp.addi 0#32 (fun i => (f i).setWidth 32) = BitVec.ofNat 32 (s.filter fun i => f i = 1#1).card := by
  induction s using Finset.induction_on with
  | empty => rfl
  | insert a s ha ih =>
    rw [Finset.fold_insert ha, ih, Finset.filter_insert]
    by_cases h : f a = 1#1
    · rw [if_pos h, Finset.card_insert_of_notMem (fun hm => ha (Finset.mem_of_mem_filter a hm)), h]
      show (1#1).setWidth 32 + _ = _
      rw [Nat.add_comm, BitVec.ofNat_add]
      rfl
    · rw [if_neg h, eq_zero_of_ne_one h]
      show (0#1).setWidth 32 + _ = _
      simp

/-- %38 is the bit 1 exactly at the entries that take part. -/
theorem v38_iff (b : Fin 256) (j : Fin 131073) :
    val_main_v38 (F := Ideal) x1 (ix2 b j) = 1#1 ↔ takes (rowOf x1 b) j :=
  ⟨fun h => by
    by_contra ht
    rw [v38_of_not_takes x1 b j ht] at h
    exact absurd h (by decide), v38_of_takes x1 b j⟩

/-- %63: the number of entries that take part, counted in 32-bit words. -/
theorem v63_eq : val_main_v63 (F := Ideal) x1 ix0 = cntWord x1 := by
  unfold val_main_v63
  rw [Host.reduce_eq_fold IntOp.addi _ _ reducesTo_S256x131073_S_d0_1 h_S_ ix0, val_main_c_15_apply]
  have hall : (Finset.univ.filter fun i : S256x131073.Idx => reducesTo_S256x131073_S_d0_1.drop i = ix0) = Finset.univ :=
    Finset.filter_true_of_mem fun i _ => funext fun a => a.elim0
  rw [hall]
  have e : val_main_v62 (F := Ideal) x1 = fun i => (val_main_v38 (F := Ideal) x1 i).setWidth 32 := rfl
  rw [e, fold_addi_bits]
  unfold cntWord
  refine congrArg (BitVec.ofNat 32) (Finset.card_equiv idxEquiv2 fun i => ?_)
  simp only [Finset.mem_filter, Finset.mem_univ, true_and]
  have hi : val_main_v38 (F := Ideal) x1 i = val_main_v38 (F := Ideal) x1 (ix2 (i 0) (i 1)) :=
    congrArg (val_main_v38 (F := Ideal) x1) (eq_ix2 i)
  rw [hi]
  exact v38_iff x1 (i 0) (i 1)

end Steps

/-- The reference's result is the specification's `resultR` of its two argument arrays, given that its %22 and %29 are
    the pooled means of each sample. -/
theorem result_apply (x0 x1 : (⟨S256x33x64x64, .f32⟩ : BufTy).Contents (Elt Ideal))
    (h22 : ∀ b : Fin 256, val_main_v22 (F := Ideal) x1 (ix1 b) = lmeanW (rowOf x1 b))
    (h29 : ∀ b : Fin 256, val_main_v29 (F := Ideal) x0 x1 (ix1 b) = pmeanW (rowOf x0 b) (rowOf x1 b)) :
    val_main_v65 (F := Ideal) x0 x1 ix0 = resultR x0 x1 := by
  rw [val_main_v65_apply, val_main_v61_apply, v60_eq x0 x1 h22 h29, val_main_v64_apply, v63_eq x1]
  unfold resultR
  rw [Ideal.hostDivf_def, Ideal.hostNegf_def, Ideal.negf_def]

end Cert.ReferenceIdeal.RefValue

end
-- ==== Proof.Bridge.lean ====
import proofs.«102884_j59210419143319_1_alg».proof.Proof.RefSpec

noncomputable section

open Classical
open Idealize.ShloMosaic Idealize.ShloMosaic.ValueIdx Cert.MaskedCE Cert.MaskedCE.Ref

namespace Cert.MaskedCE.Bridge

/-! ### Coercions and the mask -/

/-- The coercion of the reals commutes with finite sums. -/
theorem coe_sum {ι : Type} (s : Finset ι) (f : ι → ℝ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

theorem nz_of_ne {x : EReal} (h : x ≠ 0) : nz x = 1 := if_pos h
theorem nz_zero : nz 0 = 0 := if_neg (not_not.mpr rfl)

/-- A number times its own mask is the number. -/
theorem mul_nz_self (x : EReal) : x * nz x = x := by
  by_cases h : x = 0
  · subst h; rw [nz_zero, mul_zero]
  · rw [nz_of_ne h, mul_one]

/-- The mask is the coercion of the real indicator. -/
theorem nz_eq_coe (x : EReal) : nz x = ((if x ≠ 0 then 1 else 0 : ℝ) : EReal) := by
  by_cases h : x = 0
  · subst h; rw [nz_zero, if_neg (not_not.mpr rfl), EReal.coe_zero]
  · rw [nz_of_ne h, if_pos h, EReal.coe_one]

/-! ### Re-indexing: the entry behind the flat ones -/

theorem withLast_castSucc {α : Type} (g : Fin 131072 → α) (a : α) (j : Fin 131072) :
    withLast g a j.castSucc = g j := by
  have h : (j.castSucc : Fin 131073).val < 131072 := j.isLt
  exact dif_pos h

theorem withLast_last {α : Type} (g : Fin 131072 → α) (a : α) : withLast g a (Fin.last 131072) = a := by
  have h : ¬ (Fin.last 131072 : Fin 131073).val < 131072 := lt_irrefl _
  exact dif_neg h

/-- A function of the 131073 entries is its main part with its last value behind. -/
theorem eq_withLast {α : Type} (F : Fin 131073 → α) (g : Fin 131072 → α) (a : α)
    (h1 : ∀ j : Fin 131072, F j.castSucc = g j) (h2 : F (Fin.last 131072) = a) : F = withLast g a := by
  funext j
  by_cases h : j.val < 131072
  · have e : j = (⟨j.val, h⟩ : Fin 131072).castSucc := Fin.ext rfl
    rw [e, withLast_castSucc, h1]
  · have e : j = Fin.last 131072 := Fin.ext (by have := j.isLt; show j.val = 131072; omega)
    rw [e, withLast_last, h2]

theorem sum_withLast {M : Type} [AddCommMonoid M] (g : Fin 131072 → M) (a : M) :
    ∑ j : Fin 131073, withLast g a j = (∑ j, g j) + a := by
  refine (Fin.sum_univ_castSucc (n := 131072) (withLast g a)).trans ?_
  rw [withLast_last, Finset.sum_congr rfl (fun j _ => withLast_castSucc g a j)]

theorem sup_withLast (g : Fin 131072 → EReal) (a : EReal) :
    Finset.univ.sup (withLast g a) = max (Finset.univ.sup g) a := by
  apply le_antisymm
  · refine Finset.sup_le (fun j _ => ?_)
    by_cases h : j.val < 131072
    · have e : j = (⟨j.val, h⟩ : Fin 131072).castSucc := Fin.ext rfl
      rw [e, withLast_castSucc]
      exact le_max_of_le_left (Finset.le_sup (Finset.mem_univ _))
    · have e : j = Fin.last 131072 := Fin.ext (by have := j.isLt; show j.val = 131072; omega)
      rw [e, withLast_last]
      exact le_max_right _ _
  · refine max_le (Finset.sup_le (fun j _ => ?_)) ?_
    · rw [← withLast_castSucc g a j]
      exact Finset.le_sup (Finset.mem_univ _)
    · have := Finset.le_sup (f := withLast g a) (Finset.mem_univ (Fin.last 131072))
      rwa [withLast_last] at this

/-! ### Re-indexing: flat number against channel, row, column -/

/-- The flat number of an entry against its channel, row and column. -/
def flatEquiv : Fin 131072 ≃ Fin 32 × Fin 64 × Fin 64 where
  toFun j := (chan j, hrow j, wcol j)
  invFun t := ⟨t.1.val * 4096 + t.2.1.val * 64 + t.2.2.val, by
    have := t.1.isLt; have := t.2.1.isLt; have := t.2.2.isLt; omega⟩
  left_inv j := by
    apply Fin.ext
    show (j.val / 4096) * 4096 + (j.val / 64 % 64) * 64 + j.val % 64 = j.val
    omega
  right_inv t := by
    obtain ⟨c, h, w⟩ := t
    have := c.isLt; have := h.isLt; have := w.isLt
    refine Prod.ext (Fin.ext ?_) (Prod.ext (Fin.ext ?_) (Fin.ext ?_))
    · show (c.val * 4096 + h.val * 64 + w.val) / 4096 = c.val; omega
    · show (c.val * 4096 + h.val * 64 + w.val) / 64 % 64 = h.val; omega
    · show (c.val * 4096 + h.val * 64 + w.val) % 64 = w.val; omega

theorem sum_flat {M : Type} [AddCommMonoid M] (f : Fin 32 → Fin 64 → Fin 64 → M) :
    ∑ j : Fin 131072, flat f j = ∑ c, ∑ h, ∑ w, f c h w := by
  rw [Fintype.sum_equiv flatEquiv (flat f) (fun t => f t.1 t.2.1 t.2.2) (fun j => rfl), Fintype.sum_prod_type]
  refine Finset.sum_congr rfl (fun c _ => ?_)
  exact Fintype.sum_prod_type (fun t : Fin 64 × Fin 64 => f c t.1 t.2)

theorem sup_flat (f : Fin 32 → Fin 64 → Fin 64 → EReal) : Finset.univ.sup (flat f) = sup3 f := by
  apply le_antisymm
  · refine Finset.sup_le (fun j _ => ?_)
    show f (chan j) (hrow j) (wcol j) ≤ sup3 f
    exact le_trans (Finset.le_sup (f := fun w => f (chan j) (hrow j) w) (Finset.mem_univ (wcol j)))
      (le_trans (Finset.le_sup (f := fun h => Finset.univ.sup fun w => f (chan j) h w) (Finset.mem_univ (hrow j)))
        (Finset.le_sup (f := fun c => Finset.univ.sup fun h => Finset.univ.sup fun w => f c h w)
          (Finset.mem_univ (chan j))))
  · show (Finset.univ.sup fun c => Finset.univ.sup fun h => Finset.univ.sup fun w => f c h w) ≤ _
    refine Finset.sup_le (fun c _ => Finset.sup_le (fun h _ => Finset.sup_le (fun w _ => ?_)))
    have e : flatEquiv (flatEquiv.symm (c, h, w)) = (c, h, w) := flatEquiv.apply_symm_apply _
    have e' : f c h w = flat f (flatEquiv.symm (c, h, w)) :=
      (congrArg (fun t : Fin 32 × Fin 64 × Fin 64 => f t.1 t.2.1 t.2.2) e).symm
    rw [e']
    exact Finset.le_sup (Finset.mem_univ _)

/-! ### Counts taken in 32-bit integers -/

theorem toInt_ofNat_small (n : ℕ) (hn : n < 2 ^ 31) : (BitVec.ofNat 32 n).toInt = (n : ℤ) := by
  have hm : n % 2 ^ 32 = n := Nat.mod_eq_of_lt (by omega)
  rw [BitVec.toInt_eq_toNat_cond, BitVec.toNat_ofNat, hm, if_pos (by omega)]

theorem sitofp_ofNat (n : ℕ) (hn : n < 2 ^ 31) :
    FloatOps.sitofp (F := Ideal) .f32 (BitVec.ofNat 32 n) = ((n : ℝ) : EReal) := by
  show ((((BitVec.ofNat 32 n).toInt : ℤ) : ℝ) : EReal) = _
  rw [toInt_ofNat_small n hn, Int.cast_natCast]

theorem ofNat_ne_zero (n : ℕ) (h1 : 1 ≤ n) (hn : n < 2 ^ 31) : BitVec.ofNat 32 n ≠ 0#32 := by
  intro h
  have h' := congrArg BitVec.toInt h
  rw [toInt_ofNat_small n hn] at h'
  have h0 : (0#32 : BitVec 32).toInt = 0 := by decide
  rw [h0] at h'
  omega

theorem maxsi_ofNat (n : ℕ) (h1 : 1 ≤ n) (hn : n < 2 ^ 31) :
    IntOp.maxsi (BitVec.ofNat 32 n) 1#32 = BitVec.ofNat 32 n := by
  show (if (1#32 : BitVec 32).slt (BitVec.ofNat 32 n) then BitVec.ofNat 32 n else 1#32) = _
  by_cases h : n = 1
  · subst h; exact ite_self _
  · have hs : (1#32 : BitVec 32).slt (BitVec.ofNat 32 n) = true := by
      show decide ((1#32 : BitVec 32).toInt < (BitVec.ofNat 32 n).toInt) = true
      have h1' : (1#32 : BitVec 32).toInt = 1 := by decide
      rw [toInt_ofNat_small n hn, h1']
      exact decide_eq_true (by omega)
    rw [if_pos hs]

/-- The mean taken with a 32-bit count is the mean taken with the count as a real number. -/
theorem meanW_eq (s : EReal) (k : ℕ) (hk : k < 2 ^ 31) :
    meanW s (BitVec.ofNat 32 k) = meanOf s ((k : ℝ) : EReal) := by
  rcases Nat.eq_zero_or_pos k with h0 | hpos
  · subst h0
    have e1 : meanW s (BitVec.ofNat 32 0) = 0 := if_neg (not_not.mpr rfl)
    have e2 : meanOf s (((0 : ℕ) : ℝ) : EReal) = 0 := if_neg (not_not.mpr (by simp))
    rw [e1, e2]
  · have hne : BitVec.ofNat 32 k ≠ 0#32 := ofNat_ne_zero k hpos hk
    have hk0 : (k : ℝ) ≠ 0 := by exact_mod_cast hpos.ne'
    have hne' : ((k : ℝ) : EReal) ≠ 0 := EReal.coe_ne_zero.mpr hk0
    have h1 : (1 : EReal) ≤ ((k : ℝ) : EReal) := by
      rw [← EReal.coe_one, EReal.coe_le_coe_iff]; exact_mod_cast hpos
    have e1 : meanW s (BitVec.ofNat 32 k)
        = Ideal.div s (FloatOps.sitofp (F := Ideal) .f32 (IntOp.maxsi (BitVec.ofNat 32 k) 1#32)) := if_pos hne
    have e2 : meanOf s ((k : ℝ) : EReal) = Ideal.div s (max ((k : ℝ) : EReal) 1) := if_pos hne'
    rw [e1, e2, maxsi_ofNat k hpos hk, sitofp_ofNat k hk, max_eq_left h1]

/-- The sum of the masks of a plane is the number of its nonzero entries. -/
theorem sum2_nz (f : Fin 64 → Fin 64 → EReal) :
    sum2 (fun h w => nz (f h w))
      = (((Finset.univ.filter fun i : Fin 64 × Fin 64 => f i.1 i.2 ≠ 0).card : ℝ) : EReal) := by
  have e : (((Finset.univ.filter fun i : Fin 64 × Fin 64 => f i.1 i.2 ≠ 0).card : ℝ))
      = ∑ h, ∑ w, (if f h w ≠ 0 then (1 : ℝ) else 0) := by
    rw [← Finset.sum_boole, ← Fintype.sum_prod_type' (fun h w => if f h w ≠ 0 then (1 : ℝ) else 0)]
  rw [e, coe_sum]
  refine Finset.sum_congr rfl (fun h _ => ?_)
  rw [coe_sum]
  exact Finset.sum_congr rfl (fun w _ => nz_eq_coe _)

theorem meanW_countWord (s : EReal) (f : Fin 64 → Fin 64 → EReal) :
    meanW s (countWord f) = meanOf s (sum2 fun h w => nz (f h w)) := by
  have hc : (Finset.univ.filter fun i : Fin 64 × Fin 64 => f i.1 i.2 ≠ 0).card < 2 ^ 31 := by
    refine lt_of_le_of_lt (Finset.card_le_univ _) ?_
    rw [Fintype.card_prod, Fintype.card_fin]; norm_num
  rw [sum2_nz]
  exact meanW_eq s _ hc

theorem lmeanW_eq (l : Row) : lmeanW l = lmean l := meanW_countWord _ _
theorem pmeanW_eq (p l : Row) : pmeanW p l = pmean p l := meanW_countWord _ _

/-! ### One sample: the 131073 entries against the main entries and the pooled mean -/

/-- A sum over the 131073 entries, from the summand at the main entries and at the last one. -/
theorem sum_eq_of_withLast {M : Type} [AddCommMonoid M] (F : Fin 131073 → M) (f : Fin 32 → Fin 64 → Fin 64 → M) (a : M)
    (h1 : ∀ j : Fin 131072, F j.castSucc = flat f j) (h2 : F (Fin.last 131072) = a) :
    ∑ j, F j = (∑ c, ∑ h, ∑ w, f c h w) + a := by
  rw [eq_withLast F _ a h1 h2, sum_withLast, sum_flat]

theorem takes_castSucc (l : Row) (j : Fin 131072) :
    takes l j.castSucc = (lab l (chan j) (hrow j) (wcol j) ≠ 0) := withLast_castSucc _ _ j
theorem takes_last (l : Row) : takes l (Fin.last 131072) = True := withLast_last _ _
theorem takes_of_ne (l : Row) (j : Fin 131072) (h : lab l (chan j) (hrow j) (wcol j) ≠ 0) : takes l j.castSucc :=
  Eq.mpr (takes_castSucc l j) h
theorem not_takes_of_eq (l : Row) (j : Fin 131072) (h : ¬ lab l (chan j) (hrow j) (wcol j) ≠ 0) : ¬ takes l j.castSucc :=
  fun ht => h (Eq.mp (takes_castSucc l j) ht)
theorem takes_last' (l : Row) : takes l (Fin.last 131072) := Eq.mpr (takes_last l) trivial

theorem predF_castSucc (p l : Row) (j : Fin 131072) :
    predF p l j.castSucc = prd p (chan j) (hrow j) (wcol j) * nz (lab l (chan j) (hrow j) (wcol j)) :=
  withLast_castSucc _ _ j
theorem predF_last (p l : Row) : predF p l (Fin.last 131072) = pmeanW p l := withLast_last _ _
theorem labF_castSucc (l : Row) (j : Fin 131072) :
    labF l j.castSucc = lab l (chan j) (hrow j) (wcol j) * nz (lab l (chan j) (hrow j) (wcol j)) :=
  withLast_castSucc _ _ j
theorem labF_last (l : Row) : labF l (Fin.last 131072) = lmeanW l := withLast_last _ _

theorem logit_of_ne (p l : Row) (c : Fin 32) (h w : Fin 64) (hne : lab l c h w ≠ 0) : logit p l c h w = prd p c h w :=
  if_pos hne
theorem logit_of_eq (p l : Row) (c : Fin 32) (h w : Fin 64) (hne : ¬ lab l c h w ≠ 0) : logit p l c h w = fill :=
  if_neg hne

/-- The logits of the 131073 entries are the main entries' logits with the pooled mean behind them. -/
theorem logitF_castSucc (p l : Row) (j : Fin 131072) : logitF p l j.castSucc = flat (logit p l) j := by
  show (if takes l j.castSucc then predF p l j.castSucc else fill) = logit p l (chan j) (hrow j) (wcol j)
  by_cases h : lab l (chan j) (hrow j) (wcol j) ≠ 0
  · rw [if_pos (takes_of_ne l j h), predF_castSucc, nz_of_ne h, mul_one, logit_of_ne p l _ _ _ h]
  · rw [if_neg (not_takes_of_eq l j h), logit_of_eq p l _ _ _ h]

theorem logitF_last (p l : Row) : logitF p l (Fin.last 131072) = pmeanW p l := by
  show (if takes l (Fin.last 131072) then predF p l (Fin.last 131072) else fill) = _
  rw [if_pos (takes_last' l), predF_last]

theorem topR_eq (p l : Row) : topR p l = top p l := by
  show Finset.univ.sup (logitF p l) = max (sup3 (logit p l)) (pmean p l)
  rw [eq_withLast (logitF p l) _ _ (logitF_castSucc p l) (logitF_last p l), sup_withLast, sup_flat, pmeanW_eq]

theorem expSumR_eq (p l : Row) : expSumR p l = expSum p l := by
  refine sum_eq_of_withLast _ (fun c h w => if lab l c h w ≠ 0 then Ideal.exp (prd p c h w - top p l) else 0)
    (Ideal.exp (pmean p l - top p l)) (fun j => ?_) ?_
  · show (if takes l j.castSucc then Ideal.exp (logitF p l j.castSucc - topR p l) else 0)
      = (if lab l (chan j) (hrow j) (wcol j) ≠ 0 then Ideal.exp (prd p (chan j) (hrow j) (wcol j) - top p l) else 0)
    by_cases h : lab l (chan j) (hrow j) (wcol j) ≠ 0
    · have hl : flat (logit p l) j = prd p (chan j) (hrow j) (wcol j) := logit_of_ne p l _ _ _ h
      rw [if_pos (takes_of_ne l j h), if_pos h, logitF_castSucc, hl, topR_eq]
    · rw [if_neg (not_takes_of_eq l j h), if_neg h]
  · show (if takes l (Fin.last 131072) then Ideal.exp (logitF p l (Fin.last 131072) - topR p l) else 0) = _
    rw [if_pos (takes_last' l), logitF_last, topR_eq, pmeanW_eq]

theorem lseR_eq (p l : Row) : lseR p l = lse p l := by
  show topR p l + Ideal.log (expSumR p l) = top p l + Ideal.log (expSum p l)
  rw [topR_eq, expSumR_eq]

/-- The cross entropy of one sample before the sign, over the main entries and the pooled mean. -/
theorem sum_termR (p l : Row) : ∑ j : Fin 131073, termR p l j
    = (∑ c, ∑ h, ∑ w, lab l c h w * (prd p c h w - lse p l)) + lmean l * (pmean p l - lse p l) := by
  refine sum_eq_of_withLast (termR p l) (fun c h w => lab l c h w * (prd p c h w - lse p l)) _ (fun j => ?_) ?_
  · show (if takes l j.castSucc then labF l j.castSucc * (logitF p l j.castSucc - lseR p l) else 0)
      = lab l (chan j) (hrow j) (wcol j) * (prd p (chan j) (hrow j) (wcol j) - lse p l)
    by_cases h : lab l (chan j) (hrow j) (wcol j) ≠ 0
    · have hl : flat (logit p l) j = prd p (chan j) (hrow j) (wcol j) := logit_of_ne p l _ _ _ h
      rw [if_pos (takes_of_ne l j h), labF_castSucc, mul_nz_self, logitF_castSucc, hl, lseR_eq]
    · rw [if_neg (not_takes_of_eq l j h), not_not.mp h, zero_mul]
  · show (if takes l (Fin.last 131072) then labF l (Fin.last 131072) * (logitF p l (Fin.last 131072) - lseR p l) else 0) = _
    rw [if_pos (takes_last' l), labF_last, logitF_last, lseR_eq, lmeanW_eq, pmeanW_eq]

/-! ### The number of entries that take part -/

theorem cntMain_eq (l : Row) :
    cntMain l = ((∑ c, ∑ h, ∑ w, (if lab l c h w ≠ 0 then (1 : ℝ) else 0) : ℝ) : EReal) := by
  show (∑ c, ∑ h, ∑ w, nz (lab l c h w)) = _
  rw [coe_sum]
  refine Finset.sum_congr rfl (fun c _ => ?_)
  rw [coe_sum]
  refine Finset.sum_congr rfl (fun h _ => ?_)
  rw [coe_sum]
  exact Finset.sum_congr rfl (fun w _ => nz_eq_coe _)

theorem sitofp_cntWord (L : (⟨4, ![256, 33, 64, 64]⟩ : Shape).Idx → EReal) :
    FloatOps.sitofp (F := Ideal) .f32 (cntWord L) = cntOver L := by
  have hc : (Finset.univ.filter fun i : Fin 256 × Fin 131073 => takes (rowOf L i.1) i.2).card < 2 ^ 31 := by
    refine lt_of_le_of_lt (Finset.card_le_univ _) ?_
    rw [Fintype.card_prod, Fintype.card_fin, Fintype.card_fin]; norm_num
  have e : (((Finset.univ.filter fun i : Fin 256 × Fin 131073 => takes (rowOf L i.1) i.2).card : ℕ) : ℝ)
      = ∑ b : Fin 256, ((∑ c, ∑ h, ∑ w, (if lab (rowOf L b) c h w ≠ 0 then (1 : ℝ) else 0)) + 1) := by
    rw [← Finset.sum_boole, Fintype.sum_prod_type]
    refine Finset.sum_congr rfl (fun b _ => ?_)
    refine sum_eq_of_withLast _ (fun c h w => if lab (rowOf L b) c h w ≠ 0 then (1 : ℝ) else 0) 1 (fun j => ?_) ?_
    · show (if takes (rowOf L b) j.castSucc then (1 : ℝ) else 0)
        = (if lab (rowOf L b) (chan j) (hrow j) (wcol j) ≠ 0 then (1 : ℝ) else 0)
      by_cases h : lab (rowOf L b) (chan j) (hrow j) (wcol j) ≠ 0
      · rw [if_pos (takes_of_ne _ j h), if_pos h]
      · rw [if_neg (not_takes_of_eq _ j h), if_neg h]
    · exact if_pos (takes_last' _)
  show FloatOps.sitofp (F := Ideal) .f32
      (BitVec.ofNat 32 (Finset.univ.filter fun i : Fin 256 × Fin 131073 => takes (rowOf L i.1) i.2).card) = _
  rw [sitofp_ofNat _ hc, e, coe_sum]
  refine Finset.sum_congr rfl (fun b _ => ?_)
  show _ = cntMain (rowOf L b) + 1
  rw [cntMain_eq, EReal.coe_add, EReal.coe_one]

/-! ### Real numbers among the extended reals -/

/-- The extended real is a real number. -/
def IsR (x : EReal) : Prop := ∃ r : ℝ, x = (r : EReal)

theorem IsR.lt_top {x : EReal} (h : IsR x) : x < ⊤ := by obtain ⟨r, rfl⟩ := h; exact EReal.coe_lt_top r
theorem IsR.bot_lt {x : EReal} (h : IsR x) : ⊥ < x := by obtain ⟨r, rfl⟩ := h; exact EReal.bot_lt_coe r
theorem isR_of_lt {x : EReal} (h1 : ⊥ < x) (h2 : x < ⊤) : IsR x :=
  ⟨x.toReal, (EReal.coe_toReal h2.ne h1.ne').symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem isR_nz (x : EReal) : IsR (nz x) := ⟨_, nz_eq_coe x⟩
theorem isR_sum {ι : Type} (s : Finset ι) (f : ι → EReal) (h : ∀ i, IsR (f i)) : IsR (∑ i ∈ s, f i) := by
  choose g hg using h
  exact ⟨∑ i ∈ s, g i, by rw [coe_sum]; exact Finset.sum_congr rfl (fun i _ => hg i)⟩
theorem isR_sum2 (f : Fin 64 → Fin 64 → EReal) (h : ∀ a b, IsR (f a b)) : IsR (sum2 f) :=
  isR_sum _ _ (fun a => isR_sum _ _ (fun b => h a b))

/-- A triple sum of real numbers is the real triple sum. -/
theorem sum3_coe (F : Fin 32 → Fin 64 → Fin 64 → EReal) (G : Fin 32 → Fin 64 → Fin 64 → ℝ)
    (h : ∀ c h w, F c h w = ((G c h w : ℝ) : EReal)) : sum3 F = ((∑ c, ∑ h, ∑ w, G c h w : ℝ) : EReal) := by
  show (∑ c, ∑ h, ∑ w, F c h w) = _
  rw [coe_sum]
  refine Finset.sum_congr rfl (fun c _ => ?_)
  rw [coe_sum]
  refine Finset.sum_congr rfl (fun a _ => ?_)
  rw [coe_sum]
  exact Finset.sum_congr rfl (fun b _ => h c a b)

/-- The fill is a real number: its exponent field is not the all-ones one. -/
theorem fill_real : IsR fill := by
  have h : (BitVec.extractLsb' 23 8 (0xFF7FFFFF#32 : BitVec 32)).toNat ≠ 2 ^ 8 - 1 := by decide
  show ∃ r : ℝ, Ideal.ieee 8 23 (0xFF7FFFFF#32 : BitVec 32) = (r : EReal)
  delta Ideal.ieee
  simp only [if_neg h]
  split_ifs <;> exact ⟨_, rfl⟩

/-- The mean over the nonzero entries of a real sum is real. -/
theorem isR_meanOf (s : EReal) (hs : IsR s) (k : ℕ) : IsR (meanOf s ((k : ℝ) : EReal)) := by
  rcases Nat.eq_zero_or_pos k with h0 | hpos
  · subst h0
    have e2 : meanOf s (((0 : ℕ) : ℝ) : EReal) = 0 := if_neg (not_not.mpr (by simp))
    rw [e2]; exact ⟨0, EReal.coe_zero.symm⟩
  · have hk0 : (k : ℝ) ≠ 0 := by exact_mod_cast hpos.ne'
    have hne' : ((k : ℝ) : EReal) ≠ 0 := EReal.coe_ne_zero.mpr hk0
    have h1 : (1 : EReal) ≤ ((k : ℝ) : EReal) := by
      rw [← EReal.coe_one, EReal.coe_le_coe_iff]; exact_mod_cast hpos
    have e2 : meanOf s ((k : ℝ) : EReal) = Ideal.div s (max ((k : ℝ) : EReal) 1) := if_pos hne'
    rw [e2, max_eq_left h1, Ideal.div_coe hk0]
    exact hs.mul ⟨_, rfl⟩

/-- Every entry of the sample is a real number. -/
def RowR (p : Row) : Prop := ∀ c h w, IsR (p c h w)

theorem isR_lmean (l : Row) (hl : RowR l) : IsR (lmean l) := by
  show IsR (meanOf (sum2 (lpool l)) (sum2 fun h w => nz (lpool l h w)))
  rw [sum2_nz]
  exact isR_meanOf _ (isR_sum2 _ (fun a b => (hl pooled a b).mul (isR_nz _))) _

theorem isR_pmean (p l : Row) (hp : RowR p) : IsR (pmean p l) := by
  show IsR (meanOf (sum2 (ppool p l)) (sum2 fun h w => nz (ppool p l h w)))
  rw [sum2_nz]
  exact isR_meanOf _ (isR_sum2 _ (fun a b => (hp pooled a b).mul (isR_nz _))) _

theorem isR_logit (p l : Row) (hp : RowR p) (c : Fin 32) (h w : Fin 64) : IsR (logit p l c h w) := by
  by_cases hne : lab l c h w ≠ 0
  · rw [logit_of_ne p l c h w hne]; exact hp _ _ _
  · rw [logit_of_eq p l c h w hne]; exact fill_real

theorem sup3_lt_top (f : Fin 32 → Fin 64 → Fin 64 → EReal) (hf : ∀ c h w, IsR (f c h w)) : sup3 f < ⊤ := by
  show (Finset.univ.sup fun c => Finset.univ.sup fun h => Finset.univ.sup fun w => f c h w) < ⊤
  refine (Finset.sup_lt_iff bot_lt_top).mpr (fun c _ => ?_)
  refine (Finset.sup_lt_iff bot_lt_top).mpr (fun h _ => ?_)
  exact (Finset.sup_lt_iff bot_lt_top).mpr (fun w _ => (hf c h w).lt_top)

theorem isR_top (p l : Row) (hp : RowR p) : IsR (top p l) := by
  have hm := isR_pmean p l hp
  refine isR_of_lt (lt_of_lt_of_le hm.bot_lt (le_max_right _ _)) ?_
  exact max_lt (sup3_lt_top _ (isR_logit p l hp)) hm.lt_top

/-- The sum of the exponentials is a positive real number: it holds the pooled mean's, and no term is negative. -/
theorem expSum_pos (p l : Row) (hp : RowR p) : ∃ E : ℝ, 0 < E ∧ expSum p l = (E : EReal) := by
  obtain ⟨T, hT⟩ := isR_top p l hp
  obtain ⟨m, hm⟩ := isR_pmean p l hp
  choose a ha using hp
  have e1 : ∀ c h w, (if lab l c h w ≠ 0 then Ideal.exp (prd p c h w - top p l) else 0)
      = (((if lab l c h w ≠ 0 then Real.exp (a c.castSucc h w - T) else 0) : ℝ) : EReal) := by
    intro c h w
    by_cases hne : lab l c h w ≠ 0
    · rw [if_pos hne, if_pos hne, hT]
      show Ideal.exp (p c.castSucc h w - (T : EReal)) = _
      rw [ha, ← EReal.coe_sub, Ideal.exp_coe]
    · rw [if_neg hne, if_neg hne, EReal.coe_zero]
  have e2 : Ideal.exp (pmean p l - top p l) = ((Real.exp (m - T) : ℝ) : EReal) := by
    rw [hm, hT, ← EReal.coe_sub, Ideal.exp_coe]
  refine ⟨(∑ c, ∑ h, ∑ w, (if lab l c h w ≠ 0 then Real.exp (a c.castSucc h w - T) else 0)) + Real.exp (m - T), ?_, ?_⟩
  · have hnn : 0 ≤ ∑ c : Fin 32, ∑ h : Fin 64, ∑ w : Fin 64,
        (if lab l c h w ≠ 0 then Real.exp (a c.castSucc h w - T) else 0) := by
      refine Finset.sum_nonneg (fun c _ => Finset.sum_nonneg (fun h _ => Finset.sum_nonneg (fun w _ => ?_)))
      by_cases hne : lab l c h w ≠ 0
      · rw [if_pos hne]; exact (Real.exp_pos _).le
      · rw [if_neg hne]
    exact add_pos_of_nonneg_of_pos hnn (Real.exp_pos _)
  · show sum3 (fun c h w => if lab l c h w ≠ 0 then Ideal.exp (prd p c h w - top p l) else 0)
      + Ideal.exp (pmean p l - top p l) = _
    rw [sum3_coe _ _ e1, e2, EReal.coe_add]

theorem isR_lse (p l : Row) (hp : RowR p) : IsR (lse p l) := by
  obtain ⟨T, hT⟩ := isR_top p l hp
  obtain ⟨E, hE, hE'⟩ := expSum_pos p l hp
  refine ⟨T + Real.log E, ?_⟩
  show top p l + Ideal.log (expSum p l) = _
  rw [hT, hE', Ideal.log_coe, if_neg (not_le.mpr hE), EReal.coe_add]

/-- One sample: the cross entropy before the sign is a real number, and the loss is its negative. -/
theorem rowLoss_eq (p l : Row) (hp : RowR p) (hl : RowR l) :
    ∃ t : ℝ, (∑ j : Fin 131073, termR p l j) = (t : EReal) ∧ rowLoss p l = ((-t : ℝ) : EReal) := by
  obtain ⟨s, hs⟩ := isR_lse p l hp
  obtain ⟨m, hm⟩ := isR_pmean p l hp
  obtain ⟨n, hn⟩ := isR_lmean l hl
  choose a ha using hp
  choose b hb using hl
  have e1 : ∀ c h w, lab l c h w * (prd p c h w - lse p l)
      = ((b c.castSucc h w * (a c.castSucc h w - s) : ℝ) : EReal) := by
    intro c h w
    show l c.castSucc h w * (p c.castSucc h w - lse p l) = _
    rw [ha, hb, hs, ← EReal.coe_sub, ← EReal.coe_mul]
  have e2 : ∀ c h w, lab l c h w * prd p c h w = ((b c.castSucc h w * a c.castSucc h w : ℝ) : EReal) := by
    intro c h w
    show l c.castSucc h w * p c.castSucc h w = _
    rw [ha, hb, ← EReal.coe_mul]
  have e3 : ∀ c h w, lab l c h w = ((b c.castSucc h w : ℝ) : EReal) := fun c h w => hb _ _ _
  have hX : (∑ c : Fin 32, ∑ h : Fin 64, ∑ w : Fin 64, b c.castSucc h w * (a c.castSucc h w - s))
      = (∑ c : Fin 32, ∑ h : Fin 64, ∑ w : Fin 64, b c.castSucc h w * a c.castSucc h w)
        - (∑ c : Fin 32, ∑ h : Fin 64, ∑ w : Fin 64, b c.castSucc h w) * s := by
    simp only [mul_sub, Finset.sum_sub_distrib, Finset.sum_mul]
  refine ⟨(∑ c : Fin 32, ∑ h : Fin 64, ∑ w : Fin 64, b c.castSucc h w * (a c.castSucc h w - s)) + n * (m - s), ?_, ?_⟩
  · rw [sum_termR]
    show sum3 (fun c h w => lab l c h w * (prd p c h w - lse p l)) + lmean l * (pmean p l - lse p l) = _
    rw [sum3_coe _ _ e1, hn, hm, hs, ← EReal.coe_sub, ← EReal.coe_mul, ← EReal.coe_add]
  · show (0 - (sum3 (fun c h w => lab l c h w * prd p c h w) + lmean l * pmean p l))
      + lse p l * (sum3 (lab l) + lmean l) = _
    rw [sum3_coe _ _ e2, sum3_coe (lab l) _ e3, hn, hm, hs, ← EReal.coe_zero, ← EReal.coe_mul, ← EReal.coe_add,
      ← EReal.coe_sub, ← EReal.coe_add, ← EReal.coe_mul, ← EReal.coe_add, hX]
    congr 1
    ring

end Cert.MaskedCE.Bridge

namespace Cert.MaskedCE

/-- Every entry of the array is a real number. -/
def AllReal {n : Nat} (X : (⟨4, ![n, 33, 64, 64]⟩ : Shape).Idx → EReal) : Prop := ∀ i, ∃ r : ℝ, X i = (r : EReal)

/-- On arrays of real numbers the two arrangements give one result. -/
theorem resultR_eq_result (P L : (⟨4, ![256, 33, 64, 64]⟩ : Shape).Idx → EReal) (hP : AllReal P) (hL : AllReal L) :
    Ref.resultR P L = result P L := by
  have hrow : ∀ b : Fin 256, ∃ t : ℝ, (∑ j : Fin 131073, termR (rowOf P b) (rowOf L b) j) = (t : EReal)
      ∧ rowLoss (rowOf P b) (rowOf L b) = ((-t : ℝ) : EReal) :=
    fun b => Bridge.rowLoss_eq _ _ (fun c h w => hP _) (fun c h w => hL _)
  choose t ht using hrow
  have hloss : -(lossR P L) = lossOver P L := by
    show -(∑ b : Fin 256, ∑ j : Fin 131073, termR (rowOf P b) (rowOf L b) j)
      = ∑ b : Fin 256, rowLoss (rowOf P b) (rowOf L b)
    rw [Finset.sum_congr rfl (fun b _ => (ht b).1), Finset.sum_congr rfl (fun b _ => (ht b).2),
      ← Bridge.coe_sum, ← Bridge.coe_sum, ← EReal.coe_neg, Finset.sum_neg_distrib]
  show Ideal.div (-(lossR P L)) (FloatOps.sitofp (F := Ideal) .f32 (cntWord L)) = Ideal.div (lossOver P L) (cntOver L)
  rw [hloss, Bridge.sitofp_cntWord]

end Cert.MaskedCE

end
-- ==== Proof.Finite.lean ====
/-
  From the precondition to real numbers.

  The precondition says of each argument array that every entry's absolute value is below `+∞`: a comparison bit per
  entry, all of them and-ed together, the two arrays' answers and-ed again. An and that is `1` has both operands `1`, and
  a conjunction over all entries that is `1` has every entry's bit `1`; an extended real `x` with `max x (−x) < ⊤` is
  neither `⊤` nor `⊥`, that is, a real number.
-/
import proofs.«102884_j59210419143319_1_alg».proof.Proof.Gen.Pre_finite_inputs
import proofs.«102884_j59210419143319_1_alg».proof.Proof.Bridge
import Idealize.ShloMosaic.Lib.ReduceAll
import Idealize.ShloMosaic.Lib.Affine
import Idealize.ShloMosaic.PureOps.Ideal.Laws

noncomputable section

namespace Cert.MaskedCE

open Idealize.ShloMosaic Idealize.ShloMosaic.ValueIdx

instance : Subsingleton Cert.Pre_finite_inputs.S_.Idx := ⟨fun a b => funext fun d => d.elim0⟩

/-- The word the precondition compares against is `+∞`. -/
theorem top_word : Ideal.ofBits .f32 0x7F800000#32 = ⊤ := by simp [Ideal.ofBits, Ideal.ieee]

/-- An extended real whose absolute value is below `+∞` is a real number. -/
theorem real_of_abs_lt_top (x : EReal) (h : Ideal.cmp .olt (max x (-x)) ⊤ = 1#1) : ∃ r : ℝ, x = (r : EReal) := by
  have hlt : max x (-x) < ⊤ := by
    by_contra hn
    have : Ideal.cmp .olt (max x (-x)) ⊤ = 0#1 := by simp only [Ideal.cmp, hn, decide_false]; rfl
    rw [this] at h
    exact absurd h (by decide)
  have h1 : x < ⊤ := lt_of_le_of_lt (le_max_left _ _) hlt
  have h2 : -x < ⊤ := lt_of_le_of_lt (le_max_right _ _) hlt
  have hb : x ≠ ⊥ := by
    rintro rfl
    exact absurd h2 (by simp)
  exact ⟨x.toReal, (EReal.coe_toReal h1.ne hb).symm⟩

/-- Under the precondition every entry of both argument arrays is a real number. -/
theorem allReal_of_pre (x0 x1 : FVec Ideal Cert.Pre_finite_inputs.S256x33x64x64 .f32)
    (h : Cert.Pre_finite_inputs.fn (F := Ideal) x0 x1 = fun _ => 1#1) :
    AllReal (n := 256) x0 ∧ AllReal (n := 256) x1 := by
  have h0 := congrFun h ix0
  dsimp only [Cert.Pre_finite_inputs.fn] at h0
  obtain ⟨e0, e1⟩ := IntOp.andi_eq_one.1 h0
  refine ⟨fun i => ?_, fun i => ?_⟩
  · have hi := Host.reduce_andi_all _ _ _ _ _ e0 i
    refine real_of_abs_lt_top (x0 i) ?_
    rw [← top_word]
    exact hi
  · have hi := Host.reduce_andi_all _ _ _ _ _ e1 i
    refine real_of_abs_lt_top (x1 i) ?_
    rw [← top_word]
    exact hi

end Cert.MaskedCE

end
-- ==== Proof.lean ====
/-
  A masked log-softmax cross entropy, computed two ways, is one number.

  Both programs take 256 samples of predictions and labels, 33 channels of 64 × 64 each. Channel 32 is pooled into the
  mean of its nonzero entries on the support of the pooled label; the other 32 channels take part entry by entry where the
  label is not zero. With `lse` the log of the sum of the exponentials of a sample's logits (the predictions that take
  part, and the pooled mean), a sample's loss is `−Σ label · (logit − lse)`, and the result is the summed loss over the
  number of logits.

  The kernel walks the samples eight at a time over 32 grid points and keeps two running totals, the loss with `lse`
  taken out of the sum — `−(Σ l·p + lmean·pmean) + lse·(Σ l + lmean)` per sample — and the count, zeroed at the first
  point and written back after the last; the host divides the two. The reference lays each sample's 131073 logits out
  flat, takes one maximum and two sums over them, negates the total and divides by a count it keeps in integers. On
  arrays of real numbers the two agree: taking `lse` out of the sum is distributivity, which the extended reals have
  only away from the infinities, so the precondition — every entry finite — is used, to make every intermediate a real
  number (the largest logit is a maximum over a nonempty family of reals, the sum of exponentials is positive, so its log
  is real). The counts agree because 256 · 131073 entries fit a signed 32-bit integer.

  The three frames are the programs' runs with the values dropped; the idealization rewrote nothing.
-/
import proofs.«102884_j59210419143319_1_alg».proof.Defs
import proofs.«102884_j59210419143319_1_alg».proof.Proof.Gen.Kernel
import proofs.«102884_j59210419143319_1_alg».proof.Proof.Gen.Kernel.Skeleton
import proofs.«102884_j59210419143319_1_alg».proof.Proof.Gen.Kernel.Launch
import proofs.«102884_j59210419143319_1_alg».proof.Proof.Gen.Kernel.Points
import proofs.«102884_j59210419143319_1_alg».proof.Proof.Gen.Kernel.Frame
import proofs.«102884_j59210419143319_1_alg».proof.Proof.Gen.KernelIdeal
import proofs.«102884_j59210419143319_1_alg».proof.Proof.Gen.KernelIdeal.Skeleton
import proofs.«102884_j59210419143319_1_alg».proof.Proof.Gen.KernelIdeal.Launch
import proofs.«102884_j59210419143319_1_alg».proof.Proof.Gen.KernelIdeal.Points
import proofs.«102884_j59210419143319_1_alg».proof.Proof.Gen.KernelIdeal.Frame
import proofs.«102884_j59210419143319_1_alg».proof.Proof.Gen.ReferenceIdeal
import proofs.«102884_j59210419143319_1_alg».proof.Proof.Gen.Pre_finite_inputs
import proofs.«102884_j59210419143319_1_alg».proof.Proof.RefRun
import proofs.«102884_j59210419143319_1_alg».proof.Proof.RefRead
import proofs.«102884_j59210419143319_1_alg».proof.Proof.KRun
import proofs.«102884_j59210419143319_1_alg».proof.Proof.RefMeans
import proofs.«102884_j59210419143319_1_alg».proof.Proof.RefValue
import proofs.«102884_j59210419143319_1_alg».proof.Proof.Bridge
import proofs.«102884_j59210419143319_1_alg».proof.Proof.Finite
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with their result at `result` of the kernel's two argument arrays: the kernel by its
    run read as a value, the reference by its run read one operation at a time into the flat arrangement, which on
    arrays of real numbers — the precondition — is the same number. -/
theorem algebraic : Cert.algebraic_KernelIdeal_ReferenceIdeal := by
  intro m ρ m' ρ' hpre hagree
  refine ⟨fun c _ => Cert.MaskedCE.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RunValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v65_eq, (hagree c).1, (hagree c).2]
  obtain ⟨hP, hL⟩ := Cert.MaskedCE.allReal_of_pre _ _ (hpre c)
  funext i
  rw [eq_ix0 i]
  exact (Cert.ReferenceIdeal.RefValue.result_apply _ _ (fun b => Cert.ReferenceIdeal.RefValue.lmeanW_apply _ b)
    (fun b => Cert.ReferenceIdeal.RefValue.pmeanW_apply _ _ b)).trans (Cert.MaskedCE.resultR_eq_result _ _ hP hL)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
